-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x64 .f32) (main_arg6 : FVec F S64 .f32) (main_arg7 : FVec F S64x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S256x64 .f32) (main_arg6 : FVec F S64 .f32) (main_arg7 : FVec F S64x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 129
  | .vmem => 40
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S256x64, .f32⟩
  | 6 => ⟨S64, .f32⟩
  | 7 => ⟨S64x256, .f32⟩
  | 8 => ⟨S256, .f32⟩
  | 9 => ⟨S256x128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x64, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .f32⟩
  | 82 => ⟨S850000x1, .f32⟩
  | 83 => ⟨S850000x64, .f32⟩
  | 84 => ⟨S850000x64, .f32⟩
  | 85 => ⟨S_, .f32⟩
  | 86 => ⟨S50000x64, .f32⟩
  | 87 => ⟨S850000x1, .i32⟩
  | 88 => ⟨S50000x64, .f32⟩
  | 89 => ⟨S1x64, .f32⟩
  | 90 => ⟨S50000x64, .f32⟩
  | 91 => ⟨S50000x256, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x256, .f32⟩
  | 101 => ⟨S850000x1, .f32⟩
  | 102 => ⟨S850000x256, .f32⟩
  | 103 => ⟨S850000x256, .f32⟩
  | 104 => ⟨S_, .f32⟩
  | 105 => ⟨S50000x256, .f32⟩
  | 106 => ⟨S850000x1, .i32⟩
  | 107 => ⟨S50000x256, .f32⟩
  | 108 => ⟨S1x256, .f32⟩
  | 109 => ⟨S50000x256, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x256_S64x256_0_0 : ∀ a, (![0, 0] : Fin 2 → Nat) a + S64x256.size a ≤ S64x256.size a
  h_S64x256 : 0 < S64x256.numel
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S256x64, .f32⟩
  | 6 => ⟨S64, .f32⟩
  | 7 => ⟨S64x256, .f32⟩
  | 8 => ⟨S256, .f32⟩
  | 9 => ⟨S256x128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x64, .f32⟩
  | 86 => ⟨S850000x1, .f32⟩
  | 87 => ⟨S850000x64, .f32⟩
  | 88 => ⟨S850000x64, .f32⟩
  | 89 => ⟨S_, .f32⟩
  | 90 => ⟨S50000x64, .f32⟩
  | 91 => ⟨S850000x1, .i32⟩
  | 92 => ⟨S50000x64, .f32⟩
  | 93 => ⟨S1x64, .f32⟩
  | 94 => ⟨S50000x64, .f32⟩
  | 95 => ⟨S50000x64, .f32⟩
  | 96 => ⟨S50000x256, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x256, .f32⟩
  | 106 => ⟨S850000x1, .f32⟩
  | 107 => ⟨S850000x256, .f32⟩
  | 108 => ⟨S850000x256, .f32⟩
  | 109 => ⟨S_, .f32⟩
  | 110 => ⟨S50000x256, .f32⟩
  | 111 => ⟨S850000x1, .i32⟩
  | 112 => ⟨S50000x256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call2_cst : Ref sig .tc := ⟨.hbm, 116, rfl⟩
abbrev main_call2_v0 : Ref sig .tc := ⟨.hbm, 117, rfl⟩
abbrev main_v84 : Ref sig .tc := ⟨.hbm, 118, rfl⟩
abbrev main_v85 : Ref sig .tc := ⟨.hbm, 119, rfl⟩
abbrev main_c_15 : Ref sig .tc := ⟨.hbm, 120, rfl⟩
abbrev main_v86 : Ref sig .tc := ⟨.hbm, 121, rfl⟩
abbrev main_v87 : Ref sig .tc := ⟨.hbm, 122, rfl⟩
abbrev main_c_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result named.

  @main is fifteen segments: three stretches of host operations (the edge lists with the self loops appended, the degree
  normalization), then four times "a product launch, a stretch of host operations (gather the rows of the product along
  the edges, scale by the normalized weights, sum into the target rows; recast the bias as a row), a bias launch" — the
  inner product launches following a bias launch directly.  The frame certificate folds the buffer contents through
  those segments (`W0` … `W15`) and ends with every unscoped buffer of core c holding `W15 m ρ c`.  Its own conclusion
  keeps only the argument arrays; here the same launch is read for the result buffer as well: every weakly fair
  execution terminates, the result array ends at `W15 m ρ c` read at the result's buffer, the arguments end as launched.
-/
import proofs.«139777_j52158082842633_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- THE RUN with the result named: the result array at the last boundary's contents of its buffer, the arguments as
    launched. -/
theorem run : θ_run defs (onTc (τ := τ) (main (F := F))) ⟨m, fun _ => 0, ρ⟩ (fun r => ∀ c : Dev nD,
      r.2.mem ((c.tc : Thread nD τ).loc main_v95) = W15 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v95 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩)
    (run_all m ρ)

end Cert.KernelIdeal.Result

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Layer.lean ====
/-
  One graph-convolution layer's dense pieces at the extended reals, over variable extents.

  A layer is  Z = act (P (X · W) + b):  a matrix product X · W, a propagation P along the edges (a gather of rows, a
  scaling by the edge weights, a sum into the target rows: not opened here), a bias row b added to every row, and an
  optional positive part.  This module names the three dense pieces index by index —

  * `product X W`   at (i, j):  ∑ k, X (i, k) * W (k, j);
  * `addRow A b`    at (i, j):  A (i, j) + b (0, j);
  * `positivePart Z` at i:       max (Z i) 0;

  and proves that the vector unit's and the host's spellings of each piece ARE these functions: a product of operands
  rounded to bf16 accumulated into zeros, and the host's dot_general (a change of float format is the identity on the
  extended reals, and both contractions are the plain finite sum); a row spread down the rows of a block, and a vector
  broadcast twice; a maximum against the splat of the zero word on either side.  Nothing here needs finiteness: every
  law is the same sum, or the same sum of two terms, read at an index.
-/
import proofs.«139777_j52158082842633_1_alg».proof.Proof.LibDense

noncomputable section

namespace Cert.Gcn

open Idealize.ShloMosaic Idealize.ShloMosaic.ValueIdx Cert.LibDense

/-! ## The three dense pieces -/

/-- The matrix product X · W, entry by entry. -/
def product {n K N : Nat} (X : (⟨2, ![n, K]⟩ : Shape).Idx → EReal) (W : (⟨2, ![K, N]⟩ : Shape).Idx → EReal) :
    (⟨2, ![n, N]⟩ : Shape).Idx → EReal :=
  fun i => ∑ k : Fin K, X (ix2 (i 0) k) * W (ix2 k (i 1))

/-- A one-row matrix added to every row of A. -/
def addRow {n N : Nat} (A : (⟨2, ![n, N]⟩ : Shape).Idx → EReal) (b : (⟨2, ![1, N]⟩ : Shape).Idx → EReal) :
    (⟨2, ![n, N]⟩ : Shape).Idx → EReal :=
  fun i => A i + b (ix2 (0 : Fin 1) (i 1))

/-- The positive part, entry by entry: the maximum with the number the zero word denotes. -/
def positivePart {s : Shape} (Z : s.Idx → EReal) : s.Idx → EReal :=
  fun i => max (Z i) (Ideal.ofBits .f32 0x00000000#32)

/-! ## Each piece read at an index depends on the entries it names and on nothing else -/

/-- Entry i of one product is entry i' of another when row (i 0) of the one left operand is row (i' 0) of the other and
    column (i 1) of the one right operand is column (i' 1) of the other. -/
theorem product_congr {n n' K N N' : Nat}
    (X : (⟨2, ![n, K]⟩ : Shape).Idx → EReal) (W : (⟨2, ![K, N]⟩ : Shape).Idx → EReal)
    (X' : (⟨2, ![n', K]⟩ : Shape).Idx → EReal) (W' : (⟨2, ![K, N']⟩ : Shape).Idx → EReal)
    (i : (⟨2, ![n, N]⟩ : Shape).Idx) (i' : (⟨2, ![n', N']⟩ : Shape).Idx)
    (hX : ∀ k : Fin K, X (ix2 (i 0) k) = X' (ix2 (i' 0) k)) (hW : ∀ k : Fin K, W (ix2 k (i 1)) = W' (ix2 k (i' 1))) :
    product X W i = product X' W' i' :=
  Finset.sum_congr rfl fun k _ => by rw [hX k, hW k]

/-- Entry i of one sum with a row is entry i' of another when the two matrices agree there and the two rows agree at
    their columns. -/
theorem addRow_congr {n n' N N' : Nat}
    (A : (⟨2, ![n, N]⟩ : Shape).Idx → EReal) (b : (⟨2, ![1, N]⟩ : Shape).Idx → EReal)
    (A' : (⟨2, ![n', N']⟩ : Shape).Idx → EReal) (b' : (⟨2, ![1, N']⟩ : Shape).Idx → EReal)
    (i : (⟨2, ![n, N]⟩ : Shape).Idx) (i' : (⟨2, ![n', N']⟩ : Shape).Idx)
    (hA : A i = A' i') (hb : b (ix2 (0 : Fin 1) (i 1)) = b' (ix2 (0 : Fin 1) (i' 1))) :
    addRow A b i = addRow A' b' i' := by
  show A i + b (ix2 (0 : Fin 1) (i 1)) = A' i' + b' (ix2 (0 : Fin 1) (i' 1))
  rw [hA, hb]

/-- The positive part at an index depends on the entry there. -/
theorem positivePart_congr {s s' : Shape} (Z : s.Idx → EReal) (Z' : s'.Idx → EReal) (i : s.Idx) (i' : s'.Idx)
    (h : Z i = Z' i') : positivePart Z i = positivePart Z' i' :=
  congrArg (max · (Ideal.ofBits .f32 0x00000000#32)) h

/-! ## The product: the vector unit's and the host's -/

section Product
variable {n K N : Nat} (wf : DotDims.WF (⟨2, ![n, K]⟩ : Shape) ⟨2, ![K, N]⟩ ⟨2, ![n, N]⟩ [1] [0] [0] [1] [] [])

/-- The host's dot_general with the plain dimension numbers is the product. -/
theorem hostProduct_eq (l : FVec Ideal (⟨2, ![n, K]⟩ : Shape) .f32) (r : FVec Ideal (⟨2, ![K, N]⟩ : Shape) .f32) :
    Host.dotGeneral (plainOf wf) none l r = product l r := by
  funext i
  obtain ⟨p, q, rfl⟩ : ∃ (p : Fin n) (q : Fin N), i = ix2 p q := ⟨i 0, i 1, eq_ix2 i⟩
  exact dotGeneral_plain wf none .single l r p q

/-- The vector unit's product of the operands rounded to bf16, accumulated into zeros, is the product of the operands:
    rounding is the identity on the extended reals. -/
theorem unitProduct_eq (x : FVec Ideal (⟨2, ![n, K]⟩ : Shape) .f32) (w : FVec Ideal (⟨2, ![K, N]⟩ : Shape) .f32)
    (h : FTy.bf16.bits < FTy.f32.bits) :
    matmul (plainOf wf) none (truncf .bf16 x h) (truncf .bf16 w h) (constant (⟨2, ![n, N]⟩ : Shape) .f32 0x00000000#32)
      = product x w := by
  funext i
  obtain ⟨p, q, rfl⟩ : ∃ (p : Fin n) (q : Fin N), i = ix2 p q := ⟨i 0, i 1, eq_ix2 i⟩
  exact matmul_zero_plain wf none (truncf .bf16 x h) (truncf .bf16 w h) p q

end Product

/-! ## The bias row -/

section Row
variable {n N : Nat}

/-- On the vector unit: the block plus the row spread down the block's rows. -/
theorem unitAddRow_eq (A : FVec Ideal (⟨2, ![n, N]⟩ : Shape) .f32) (b : FVec Ideal (⟨2, ![1, N]⟩ : Shape) .f32)
    (h : (⟨2, ![1, N]⟩ : Shape).Broadcasts ⟨2, ![n, N]⟩) :
    addf A (broadcastTo (⟨2, ![n, N]⟩ : Shape) b h) = addRow A b := by
  funext i
  obtain ⟨p, q, rfl⟩ : ∃ (p : Fin n) (q : Fin N), i = ix2 p q := ⟨i 0, i 1, eq_ix2 i⟩
  exact congrArg (A (ix2 p q) + ·) (broadcastTo_1b_ab_apply b h p q)

/-- A vector laid out as a one-row matrix by a broadcast along a new leading axis is the vector recast to that shape. -/
theorem rowOfVector_eq (v : (⟨1, ![N]⟩ : Shape).Idx → EReal)
    (h1 : (⟨1, ![N]⟩ : Shape).BroadcastsInDim ⟨2, ![1, N]⟩ ![1]) (hc : (⟨1, ![N]⟩ : Shape).ShapeCasts ⟨2, ![1, N]⟩) :
    broadcastInDim (⟨2, ![1, N]⟩ : Shape) ![1] h1 v = shapeCast (⟨2, ![1, N]⟩ : Shape) v hc := by
  funext j
  obtain ⟨u, q, rfl⟩ : ∃ (u : Fin 1) (q : Fin N), j = ix2 u q := ⟨j 0, j 1, eq_ix2 j⟩
  rw [shapeCast_a_1a_apply v hc u q]
  refine broadcastInDim_apply ![1] h1 v (ix2 u q) (ix1 q) fun a => ?_
  match a with
  | ⟨0, _⟩ =>
    show q.val = if N = 1 then 0 else q.val
    split
    · have := q.isLt; omega
    · rfl

/-- On the host: the matrix plus the one-row matrix broadcast over the rows. -/
theorem hostAddRow_eq (A : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) :
    addf A (broadcastInDim (⟨2, ![n, N]⟩ : Shape) ![0, 1] h2 b) = addRow A b := by
  funext i
  obtain ⟨p, q, rfl⟩ : ∃ (p : Fin n) (q : Fin N), i = ix2 p q := ⟨i 0, i 1, eq_ix2 i⟩
  refine congrArg (A (ix2 p q) + ·) ?_
  refine broadcastInDim_apply ![0, 1] h2 b (ix2 p q) (ix2 (0 : Fin 1) q) fun a => ?_
  match a with
  | ⟨0, _⟩ => rfl
  | ⟨1, _⟩ =>
    show q.val = if N = 1 then 0 else q.val
    split
    · have := q.isLt; omega
    · rfl

end Row

/-! ## The positive part -/

/-- On the vector unit: the maximum with the splat of the zero word. -/
theorem unitPositivePart_eq {s : Shape} (Z : FVec Ideal s .f32) :
    maximumf Z (broadcast s (Scalar.ofBits (F := Ideal) .f32 0x00000000#32)) = positivePart Z := rfl

/-- On the host: the maximum with the zero scalar broadcast to the shape. -/
theorem hostPositivePart_eq {s : Shape} (Z : FVec Ideal s .f32) (h : (⟨0, ![]⟩ : Shape).BroadcastsInDim s ![]) :
    maximumf Z (broadcastInDim s ![] h (constant (F := Ideal) (⟨0, ![]⟩ : Shape) .f32 0x00000000#32)) = positivePart Z := rfl

end Cert.Gcn

end
-- ==== Proof.Launch0.lean ====
/-
  Launch 0 of the kernel: the row-tiled product  main_v32 = main_arg0 · main_arg3  ([50000, 128] by [128, 256]).

  The grid has 25 points; point t stages rows 2000 t … 2000 t + 1999 of the left operand, the whole right operand, and
  writes back rows 2000 t … 2000 t + 1999 of the result.  The body's one store is the vector unit's product of the two
  staged blocks (rounded to bf16, accumulated into zeros), which on the extended reals is `Gcn.product` of the blocks.
  Row r of a block's product reads row r of the left block and the whole right operand, so block t of the result is
  block t of the product of the whole arrays; the 25 blocks cover the result array, which therefore ends as that product —
  whatever contents `V` the launch finds in its arrays.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch0

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value is the product of its two loaded blocks. -/
theorem stored_eq (x0 : FVec Ideal S2000x128 .f32) (x1 : FVec Ideal S128x256 .f32) :
    k0_pay1 (F := Ideal) x0 x1 = product (n := 2000) (K := 128) (N := 256) x0 x1 := by
  unfold k0_pay1
  exact unitProduct_eq dot_S2000x128_S128x256_S2000x256_1_0_0_1_n_n.wf x0 x1 bitsLt_bf16_f32

/-- The index maps over the 25 points: the left operand and the result move down one block of rows per point, the right
    operand stays. -/
theorem maps : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Every block of rows is some point's. -/
theorem maps_onto : ∀ q : Fin 25, ∃ t : Fin cfg0.N, win0_2.index t = ![q.val, 0] :=
  (by decide +kernel : ∀ q : Fin 25, ∃ t : Fin grid0.N, win0_2.index t = ![q.val, 0])

/-- The left operand's block at point t, read at (r, k), is the array at (2000 t + r, k). -/
theorem left_read (c : Dev nD) (t : Fin cfg0.N) (y : S2000x128.Idx) (i : S50000x128.Idx)
    (h0 : (i 0).val = t.val * 2000 + (y 0).val) (h1 : (i 1).val = (y 1).val) :
    iblk0 V c 0 t y = V c main_arg0 i := by
  obtain ⟨e0, e1, e2, e3, e4, e5⟩ := maps t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The right operand's block at any point is the whole array. -/
theorem right_read (c : Dev nD) (t : Fin cfg0.N) (y : S128x256.Idx) (i : S128x256.Idx)
    (h0 : (i 0).val = (y 0).val) (h1 : (i 1).val = (y 1).val) :
    iblk0 V c 1 t y = V c main_arg3 i := by
  obtain ⟨e0, e1, e2, e3, e4, e5⟩ := maps t
  show V c main_arg3 (((cfg0.win 1).blk t).view.emb y) = V c main_arg3 i
  refine congrArg (V c main_arg3) (funext fun a => Fin.ext ?_)
  match a with
  | ⟨0, _⟩ => show win0_1.index t (0 : Fin 2) * 128 + 1 * (y 0).val = (i 0).val; omega
  | ⟨1, _⟩ => show win0_1.index t (1 : Fin 2) * 256 + 1 * (y 1).val = (i 1).val; omega

/-- What point t writes back is block t of the product of the arrays as the launch finds them. -/
theorem written_eq (c : Dev nD) (t : Fin cfg0.N) :
    (dat0 V c).flushed 2 t
      = ((cfg0.win 2).blk t).view.read (Elt Ideal) (product (n := 50000) (K := 128) (N := 256) (V c main_arg0) (V c main_arg3)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x256) origin]
  rw [stored_eq]
  obtain ⟨e0, e1, e2, e3, e4, e5⟩ := maps t
  funext j
  show product (n := 2000) (K := 128) (N := 256) (iblk0 V c 0 t) (iblk0 V c 1 t) j
    = product (n := 50000) (K := 128) (N := 256) (V c main_arg0) (V c main_arg3) (((cfg0.win 2).blk t).view.emb j)
  exact product_congr _ _ _ _ j (((cfg0.win 2).blk t).view.emb j)
    (fun k => left_read V c t (ix2 (j 0) k) (ix2 ((((cfg0.win 2).blk t).view.emb j) 0) k)
      (by show win0_2.index t (0 : Fin 2) * 2000 + 1 * (j 0).val = t.val * 2000 + (j 0).val; omega) rfl)
    (fun k => right_read V c t (ix2 k (j 1)) (ix2 k ((((cfg0.win 2).blk t).view.emb j) 1)) rfl
      (by show win0_2.index t (1 : Fin 2) * 256 + 1 * (j 1).val = (j 1).val; omega))

/-- An index of the result is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Row r of the result is in the block of point r / 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := maps_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE RESULT ARRAY after the launch: the product of the two operand arrays as the launch found them. -/
theorem result (c : Dev nD) :
    (dat0 V c).arrAt 2 cfg0.N = product (n := 50000) (K := 128) (N := 256) (V c main_arg0) (V c main_arg3) :=
  (dat0 V c).arrAt_eq_of_cover 2 _ (fun t _ => written_eq V c t) covered

end Cert.KernelIdeal.Launch0

end
-- ==== Proof.Launch1.lean ====
/-
  Launch 1 of the kernel: the bias row and the positive part,  main_v47 = max (main_v45 + main_v46 (spread down the rows), 0)  ([50000, 256]).

  The grid has 25 points; point t stages rows 2000 t … 2000 t + 1999 of the summed messages, the one-row bias, and
  writes back the same rows of the result.  The body adds the bias row to every row of its block and takes the maximum
  with the splat of the zero word: on the extended reals `Gcn.addRow` under `Gcn.positivePart` of the blocks.  Entry (r, j) of a block's
  result reads entry (r, j) of the block and entry (0, j) of the bias, so block t of the result is block t of the same
  function of the whole arrays; the 25 blocks cover the result array.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch1

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value: the bias row added to every row of the block, then the positive part. -/
theorem stored_eq (x0 : FVec Ideal S2000x256 .f32) (x1 : FVec Ideal S1x256 .f32) :
    k1_pay1 (F := Ideal) x0 x1 = positivePart (addRow (n := 2000) (N := 256) x0 x1) := by
  unfold k1_pay1
  simp only [shapeCast_self]
  rw [unitAddRow_eq (n := 2000) (N := 256) x0 x1 broadcasts_S1x256_S2000x256]
  rfl

/-- The index maps over the 25 points: the messages and the result move down one block of rows per point, the bias row
    stays. -/
theorem maps : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Every block of rows is some point's. -/
theorem maps_onto : ∀ q : Fin 25, ∃ t : Fin cfg1.N, win1_2.index t = ![q.val, 0] :=
  (by decide +kernel : ∀ q : Fin 25, ∃ t : Fin grid1.N, win1_2.index t = ![q.val, 0])

/-- The messages' block at point t, read at (r, j), is the array at (2000 t + r, j). -/
theorem block_read (c : Dev nD) (t : Fin cfg1.N) (y : S2000x256.Idx) (i : S50000x256.Idx)
    (h0 : (i 0).val = t.val * 2000 + (y 0).val) (h1 : (i 1).val = (y 1).val) :
    iblk1 V c 0 t y = V c main_v45 i := by
  obtain ⟨e0, e1, e2, e3, e4, e5⟩ := maps t
  show V c main_v45 (((cfg1.win 0).blk t).view.emb y) = V c main_v45 i
  refine congrArg (V c main_v45) (funext fun a => Fin.ext ?_)
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- The bias row's block at any point is the whole one-row array. -/
theorem row_read (c : Dev nD) (t : Fin cfg1.N) (y : S1x256.Idx) (i : S1x256.Idx)
    (h0 : (i 0).val = (y 0).val) (h1 : (i 1).val = (y 1).val) :
    iblk1 V c 1 t y = V c main_v46 i := by
  obtain ⟨e0, e1, e2, e3, e4, e5⟩ := maps t
  show V c main_v46 (((cfg1.win 1).blk t).view.emb y) = V c main_v46 i
  refine congrArg (V c main_v46) (funext fun a => Fin.ext ?_)
  match a with
  | ⟨0, _⟩ => show win1_1.index t (0 : Fin 2) * 1 + 1 * (y 0).val = (i 0).val; omega
  | ⟨1, _⟩ => show win1_1.index t (1 : Fin 2) * 256 + 1 * (y 1).val = (i 1).val; omega

/-- What point t writes back is block t of the same function of the arrays as the launch finds them. -/
theorem written_eq (c : Dev nD) (t : Fin cfg1.N) :
    (dat1 V c).flushed 2 t
      = ((cfg1.win 2).blk t).view.read (Elt Ideal) (positivePart (addRow (n := 50000) (N := 256) (V c main_v45) (V c main_v46))) := by
  show (cfg1.win 2).cut (grid1.coords t) ((dat1 V c).after 2 t) = _
  rw [after1_2]
  unfold out1_2
  rw [View.canon_unit_zero origin]
  simp only [View.ld_unit_zero (S := S2000x256) origin, View.ld_unit_zero (S := S1x256) origin]
  rw [stored_eq]
  obtain ⟨e0, e1, e2, e3, e4, e5⟩ := maps t
  funext j
  show positivePart (addRow (n := 2000) (N := 256) (iblk1 V c 0 t) (iblk1 V c 1 t)) j
    = positivePart (addRow (n := 50000) (N := 256) (V c main_v45) (V c main_v46)) (((cfg1.win 2).blk t).view.emb j)
  exact positivePart_congr _ _ j (((cfg1.win 2).blk t).view.emb j)
    (addRow_congr _ _ _ _ j (((cfg1.win 2).blk t).view.emb j)
      (block_read V c t j (((cfg1.win 2).blk t).view.emb j)
        (by show win1_2.index t (0 : Fin 2) * 2000 + 1 * (j 0).val = t.val * 2000 + (j 0).val; omega)
        (by show win1_2.index t (1 : Fin 2) * 256 + 1 * (j 1).val = (j 1).val; omega))
      (row_read V c t (ix2 (0 : Fin 1) (j 1)) (ix2 (0 : Fin 1) ((((cfg1.win 2).blk t).view.emb j) 1)) rfl
        (by show win1_2.index t (1 : Fin 2) * 256 + 1 * (j 1).val = (j 1).val; omega)))

/-- An index of the result is in point t's block iff each coordinate is in the block's range on its axis. -/
theorem mem_block (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v47).slice (win1_2.rect t)).set ↔ _
  rw [View.set_slice_whole, Rect.mem_set_unit]
  exact Iff.rfl

/-- Row r of the result is in the block of point r / 2000. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := maps_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE RESULT ARRAY after the launch: the messages plus the bias row, positive part taken, of the arrays as the launch found them. -/
theorem result (c : Dev nD) :
    (dat1 V c).arrAt 2 cfg1.N = positivePart (addRow (n := 50000) (N := 256) (V c main_v45) (V c main_v46)) :=
  (dat1 V c).arrAt_eq_of_cover 2 _ (fun t _ => written_eq V c t) covered

end Cert.KernelIdeal.Launch1

end
-- ==== Proof.Launch2.lean ====
/-
  Launch 2 of the kernel: the row-tiled product  main_v48 = main_v47 · main_arg5  ([50000, 256] by [256, 64]).

  The grid has 25 points; point t stages rows 2000 t … 2000 t + 1999 of the left operand, the whole right operand, and
  writes back rows 2000 t … 2000 t + 1999 of the result.  The body's one store is the vector unit's product of the two
  staged blocks (rounded to bf16, accumulated into zeros), which on the extended reals is `Gcn.product` of the blocks.
  Row r of a block's product reads row r of the left block and the whole right operand, so block t of the result is
  block t of the product of the whole arrays; the 25 blocks cover the result array, which therefore ends as that product —
  whatever contents `V` the launch finds in its arrays.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch2

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value is the product of its two loaded blocks. -/
theorem stored_eq (x0 : FVec Ideal S2000x256 .f32) (x1 : FVec Ideal S256x64 .f32) :
    k2_pay1 (F := Ideal) x0 x1 = product (n := 2000) (K := 256) (N := 64) x0 x1 := by
  unfold k2_pay1
  simp only [shapeCast_self]
  exact unitProduct_eq dot_S2000x256_S256x64_S2000x64_1_0_0_1_n_n.wf x0 x1 bitsLt_bf16_f32

/-- The index maps over the 25 points: the left operand and the result move down one block of rows per point, the right
    operand stays. -/
theorem maps : ∀ t : Fin cfg2.N,
    win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Every block of rows is some point's. -/
theorem maps_onto : ∀ q : Fin 25, ∃ t : Fin cfg2.N, win2_2.index t = ![q.val, 0] :=
  (by decide +kernel : ∀ q : Fin 25, ∃ t : Fin grid2.N, win2_2.index t = ![q.val, 0])

/-- The left operand's block at point t, read at (r, k), is the array at (2000 t + r, k). -/
theorem left_read (c : Dev nD) (t : Fin cfg2.N) (y : S2000x256.Idx) (i : S50000x256.Idx)
    (h0 : (i 0).val = t.val * 2000 + (y 0).val) (h1 : (i 1).val = (y 1).val) :
    iblk2 V c 0 t y = V c main_v47 i := by
  obtain ⟨e0, e1, e2, e3, e4, e5⟩ := maps t
  show V c main_v47 (((cfg2.win 0).blk t).view.emb y) = V c main_v47 i
  refine congrArg (V c main_v47) (funext fun a => Fin.ext ?_)
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- The right operand's block at any point is the whole array. -/
theorem right_read (c : Dev nD) (t : Fin cfg2.N) (y : S256x64.Idx) (i : S256x64.Idx)
    (h0 : (i 0).val = (y 0).val) (h1 : (i 1).val = (y 1).val) :
    iblk2 V c 1 t y = V c main_arg5 i := by
  obtain ⟨e0, e1, e2, e3, e4, e5⟩ := maps t
  show V c main_arg5 (((cfg2.win 1).blk t).view.emb y) = V c main_arg5 i
  refine congrArg (V c main_arg5) (funext fun a => Fin.ext ?_)
  match a with
  | ⟨0, _⟩ => show win2_1.index t (0 : Fin 2) * 256 + 1 * (y 0).val = (i 0).val; omega
  | ⟨1, _⟩ => show win2_1.index t (1 : Fin 2) * 64 + 1 * (y 1).val = (i 1).val; omega

/-- What point t writes back is block t of the product of the arrays as the launch finds them. -/
theorem written_eq (c : Dev nD) (t : Fin cfg2.N) :
    (dat2 V c).flushed 2 t
      = ((cfg2.win 2).blk t).view.read (Elt Ideal) (product (n := 50000) (K := 256) (N := 64) (V c main_v47) (V c main_arg5)) := by
  show (cfg2.win 2).cut (grid2.coords t) ((dat2 V c).after 2 t) = _
  rw [after2_2]
  unfold out2_2
  rw [View.canon_unit_zero origin]
  simp only [View.ld_unit_zero (S := S2000x256) origin, View.ld_unit_zero (S := S256x64) origin]
  rw [stored_eq]
  obtain ⟨e0, e1, e2, e3, e4, e5⟩ := maps t
  funext j
  show product (n := 2000) (K := 256) (N := 64) (iblk2 V c 0 t) (iblk2 V c 1 t) j
    = product (n := 50000) (K := 256) (N := 64) (V c main_v47) (V c main_arg5) (((cfg2.win 2).blk t).view.emb j)
  exact product_congr _ _ _ _ j (((cfg2.win 2).blk t).view.emb j)
    (fun k => left_read V c t (ix2 (j 0) k) (ix2 ((((cfg2.win 2).blk t).view.emb j) 0) k)
      (by show win2_2.index t (0 : Fin 2) * 2000 + 1 * (j 0).val = t.val * 2000 + (j 0).val; omega) rfl)
    (fun k => right_read V c t (ix2 k (j 1)) (ix2 k ((((cfg2.win 2).blk t).view.emb j) 1)) rfl
      (by show win2_2.index t (1 : Fin 2) * 64 + 1 * (j 1).val = (j 1).val; omega))

/-- An index of the result is in point t's block iff each coordinate is in the block's range on its axis. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Row r of the result is in the block of point r / 2000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := maps_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE RESULT ARRAY after the launch: the product of the two operand arrays as the launch found them. -/
theorem result (c : Dev nD) :
    (dat2 V c).arrAt 2 cfg2.N = product (n := 50000) (K := 256) (N := 64) (V c main_v47) (V c main_arg5) :=
  (dat2 V c).arrAt_eq_of_cover 2 _ (fun t _ => written_eq V c t) covered

end Cert.KernelIdeal.Launch2

end
-- ==== Proof.Launch3.lean ====
/-
  Launch 3 of the kernel: the bias row,  main_v63 = main_v61 + main_v62 (spread down the rows)  ([50000, 64]).

  The grid has 25 points; point t stages rows 2000 t … 2000 t + 1999 of the summed messages, the one-row bias, and
  writes back the same rows of the result.  The body adds the bias row to every row of its block: on the extended reals `Gcn.addRow` of the blocks.  Entry (r, j) of a block's
  result reads entry (r, j) of the block and entry (0, j) of the bias, so block t of the result is block t of the same
  function of the whole arrays; the 25 blocks cover the result array.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch3

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value: the bias row added to every row of the block. -/
theorem stored_eq (x0 : FVec Ideal S2000x64 .f32) (x1 : FVec Ideal S1x64 .f32) :
    k3_pay1 (F := Ideal) x0 x1 = addRow (n := 2000) (N := 64) x0 x1 := by
  unfold k3_pay1
  simp only [shapeCast_self]
  rw [unitAddRow_eq (n := 2000) (N := 64) x0 x1 broadcasts_S1x64_S2000x64]

/-- The index maps over the 25 points: the messages and the result move down one block of rows per point, the bias row
    stays. -/
theorem maps : ∀ t : Fin cfg3.N,
    win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- Every block of rows is some point's. -/
theorem maps_onto : ∀ q : Fin 25, ∃ t : Fin cfg3.N, win3_2.index t = ![q.val, 0] :=
  (by decide +kernel : ∀ q : Fin 25, ∃ t : Fin grid3.N, win3_2.index t = ![q.val, 0])

/-- The messages' block at point t, read at (r, j), is the array at (2000 t + r, j). -/
theorem block_read (c : Dev nD) (t : Fin cfg3.N) (y : S2000x64.Idx) (i : S50000x64.Idx)
    (h0 : (i 0).val = t.val * 2000 + (y 0).val) (h1 : (i 1).val = (y 1).val) :
    iblk3 V c 0 t y = V c main_v61 i := by
  obtain ⟨e0, e1, e2, e3, e4, e5⟩ := maps t
  show V c main_v61 (((cfg3.win 0).blk t).view.emb y) = V c main_v61 i
  refine congrArg (V c main_v61) (funext fun a => Fin.ext ?_)
  match a with
  | ⟨0, _⟩ => show win3_0.index t (0 : Fin 2) * 2000 + 1 * (y 0).val = (i 0).val; omega
  | ⟨1, _⟩ => show win3_0.index t (1 : Fin 2) * 64 + 1 * (y 1).val = (i 1).val; omega

/-- The bias row's block at any point is the whole one-row array. -/
theorem row_read (c : Dev nD) (t : Fin cfg3.N) (y : S1x64.Idx) (i : S1x64.Idx)
    (h0 : (i 0).val = (y 0).val) (h1 : (i 1).val = (y 1).val) :
    iblk3 V c 1 t y = V c main_v62 i := by
  obtain ⟨e0, e1, e2, e3, e4, e5⟩ := maps t
  show V c main_v62 (((cfg3.win 1).blk t).view.emb y) = V c main_v62 i
  refine congrArg (V c main_v62) (funext fun a => Fin.ext ?_)
  match a with
  | ⟨0, _⟩ => show win3_1.index t (0 : Fin 2) * 1 + 1 * (y 0).val = (i 0).val; omega
  | ⟨1, _⟩ => show win3_1.index t (1 : Fin 2) * 64 + 1 * (y 1).val = (i 1).val; omega

/-- What point t writes back is block t of the same function of the arrays as the launch finds them. -/
theorem written_eq (c : Dev nD) (t : Fin cfg3.N) :
    (dat3 V c).flushed 2 t
      = ((cfg3.win 2).blk t).view.read (Elt Ideal) (addRow (n := 50000) (N := 64) (V c main_v61) (V c main_v62)) := by
  show (cfg3.win 2).cut (grid3.coords t) ((dat3 V c).after 2 t) = _
  rw [after3_2]
  unfold out3_2
  rw [View.canon_unit_zero origin]
  simp only [View.ld_unit_zero (S := S2000x64) origin, View.ld_unit_zero (S := S1x64) origin]
  rw [stored_eq]
  obtain ⟨e0, e1, e2, e3, e4, e5⟩ := maps t
  funext j
  show addRow (n := 2000) (N := 64) (iblk3 V c 0 t) (iblk3 V c 1 t) j
    = addRow (n := 50000) (N := 64) (V c main_v61) (V c main_v62) (((cfg3.win 2).blk t).view.emb j)
  exact addRow_congr _ _ _ _ j (((cfg3.win 2).blk t).view.emb j)
      (block_read V c t j (((cfg3.win 2).blk t).view.emb j)
        (by show win3_2.index t (0 : Fin 2) * 2000 + 1 * (j 0).val = t.val * 2000 + (j 0).val; omega)
        (by show win3_2.index t (1 : Fin 2) * 64 + 1 * (j 1).val = (j 1).val; omega))
      (row_read V c t (ix2 (0 : Fin 1) (j 1)) (ix2 (0 : Fin 1) ((((cfg3.win 2).blk t).view.emb j) 1)) rfl
        (by show win3_2.index t (1 : Fin 2) * 64 + 1 * (j 1).val = (j 1).val; omega))

/-- An index of the result is in point t's block iff each coordinate is in the block's range on its axis. -/
theorem mem_block (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v63).slice (win3_2.rect t)).set ↔ _
  rw [View.set_slice_whole, Rect.mem_set_unit]
  exact Iff.rfl

/-- Row r of the result is in the block of point r / 2000. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := maps_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- THE RESULT ARRAY after the launch: the messages plus the bias row, of the arrays as the launch found them. -/
theorem result (c : Dev nD) :
    (dat3 V c).arrAt 2 cfg3.N = addRow (n := 50000) (N := 64) (V c main_v61) (V c main_v62) :=
  (dat3 V c).arrAt_eq_of_cover 2 _ (fun t _ => written_eq V c t) covered

end Cert.KernelIdeal.Launch3

end
-- ==== Proof.Launch4.lean ====
/-
  Launch 4 of the kernel: the row-tiled product  main_v64 = main_v63 · main_arg7  ([50000, 64] by [64, 256]).

  The grid has 25 points; point t stages rows 2000 t … 2000 t + 1999 of the left operand, the whole right operand, and
  writes back rows 2000 t … 2000 t + 1999 of the result.  The body's one store is the vector unit's product of the two
  staged blocks (rounded to bf16, accumulated into zeros), which on the extended reals is `Gcn.product` of the blocks.
  Row r of a block's product reads row r of the left block and the whole right operand, so block t of the result is
  block t of the product of the whole arrays; the 25 blocks cover the result array, which therefore ends as that product —
  whatever contents `V` the launch finds in its arrays.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch4

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value is the product of its two loaded blocks. -/
theorem stored_eq (x0 : FVec Ideal S2000x64 .f32) (x1 : FVec Ideal S64x256 .f32) :
    k4_pay1 (F := Ideal) x0 x1 = product (n := 2000) (K := 64) (N := 256) x0 x1 := by
  unfold k4_pay1
  simp only [shapeCast_self]
  exact unitProduct_eq dot_S2000x64_S64x256_S2000x256_1_0_0_1_n_n.wf x0 x1 bitsLt_bf16_f32

/-- The index maps over the 25 points: the left operand and the result move down one block of rows per point, the right
    operand stays. -/
theorem maps : ∀ t : Fin cfg4.N,
    win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Every block of rows is some point's. -/
theorem maps_onto : ∀ q : Fin 25, ∃ t : Fin cfg4.N, win4_2.index t = ![q.val, 0] :=
  (by decide +kernel : ∀ q : Fin 25, ∃ t : Fin grid4.N, win4_2.index t = ![q.val, 0])

/-- The left operand's block at point t, read at (r, k), is the array at (2000 t + r, k). -/
theorem left_read (c : Dev nD) (t : Fin cfg4.N) (y : S2000x64.Idx) (i : S50000x64.Idx)
    (h0 : (i 0).val = t.val * 2000 + (y 0).val) (h1 : (i 1).val = (y 1).val) :
    iblk4 V c 0 t y = V c main_v63 i := by
  obtain ⟨e0, e1, e2, e3, e4, e5⟩ := maps t
  show V c main_v63 (((cfg4.win 0).blk t).view.emb y) = V c main_v63 i
  refine congrArg (V c main_v63) (funext fun a => Fin.ext ?_)
  match a with
  | ⟨0, _⟩ => show win4_0.index t (0 : Fin 2) * 2000 + 1 * (y 0).val = (i 0).val; omega
  | ⟨1, _⟩ => show win4_0.index t (1 : Fin 2) * 64 + 1 * (y 1).val = (i 1).val; omega

/-- The right operand's block at any point is the whole array. -/
theorem right_read (c : Dev nD) (t : Fin cfg4.N) (y : S64x256.Idx) (i : S64x256.Idx)
    (h0 : (i 0).val = (y 0).val) (h1 : (i 1).val = (y 1).val) :
    iblk4 V c 1 t y = V c main_arg7 i := by
  obtain ⟨e0, e1, e2, e3, e4, e5⟩ := maps t
  show V c main_arg7 (((cfg4.win 1).blk t).view.emb y) = V c main_arg7 i
  refine congrArg (V c main_arg7) (funext fun a => Fin.ext ?_)
  match a with
  | ⟨0, _⟩ => show win4_1.index t (0 : Fin 2) * 64 + 1 * (y 0).val = (i 0).val; omega
  | ⟨1, _⟩ => show win4_1.index t (1 : Fin 2) * 256 + 1 * (y 1).val = (i 1).val; omega

/-- What point t writes back is block t of the product of the arrays as the launch finds them. -/
theorem written_eq (c : Dev nD) (t : Fin cfg4.N) :
    (dat4 V c).flushed 2 t
      = ((cfg4.win 2).blk t).view.read (Elt Ideal) (product (n := 50000) (K := 64) (N := 256) (V c main_v63) (V c main_arg7)) := by
  show (cfg4.win 2).cut (grid4.coords t) ((dat4 V c).after 2 t) = _
  rw [after4_2]
  unfold out4_2
  rw [View.canon_unit_zero origin]
  simp only [View.ld_unit_zero (S := S2000x64) origin, View.ld_unit_zero (S := S64x256) origin]
  rw [stored_eq]
  obtain ⟨e0, e1, e2, e3, e4, e5⟩ := maps t
  funext j
  show product (n := 2000) (K := 64) (N := 256) (iblk4 V c 0 t) (iblk4 V c 1 t) j
    = product (n := 50000) (K := 64) (N := 256) (V c main_v63) (V c main_arg7) (((cfg4.win 2).blk t).view.emb j)
  exact product_congr _ _ _ _ j (((cfg4.win 2).blk t).view.emb j)
    (fun k => left_read V c t (ix2 (j 0) k) (ix2 ((((cfg4.win 2).blk t).view.emb j) 0) k)
      (by show win4_2.index t (0 : Fin 2) * 2000 + 1 * (j 0).val = t.val * 2000 + (j 0).val; omega) rfl)
    (fun k => right_read V c t (ix2 k (j 1)) (ix2 k ((((cfg4.win 2).blk t).view.emb j) 1)) rfl
      (by show win4_2.index t (1 : Fin 2) * 256 + 1 * (j 1).val = (j 1).val; omega))

/-- An index of the result is in point t's block iff each coordinate is in the block's range on its axis. -/
theorem mem_block (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v64).slice (win4_2.rect t)).set ↔ _
  rw [View.set_slice_whole, Rect.mem_set_unit]
  exact Iff.rfl

/-- Row r of the result is in the block of point r / 2000. -/
theorem covered (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := maps_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- THE RESULT ARRAY after the launch: the product of the two operand arrays as the launch found them. -/
theorem result (c : Dev nD) :
    (dat4 V c).arrAt 2 cfg4.N = product (n := 50000) (K := 64) (N := 256) (V c main_v63) (V c main_arg7) :=
  (dat4 V c).arrAt_eq_of_cover 2 _ (fun t _ => written_eq V c t) covered

end Cert.KernelIdeal.Launch4

end
-- ==== Proof.Launch5.lean ====
/-
  Launch 5 of the kernel: the bias row and the positive part,  main_v79 = max (main_v77 + main_v78 (spread down the rows), 0)  ([50000, 256]).

  The grid has 25 points; point t stages rows 2000 t … 2000 t + 1999 of the summed messages, the one-row bias, and
  writes back the same rows of the result.  The body adds the bias row to every row of its block and takes the maximum
  with the splat of the zero word: on the extended reals `Gcn.addRow` under `Gcn.positivePart` of the blocks.  Entry (r, j) of a block's
  result reads entry (r, j) of the block and entry (0, j) of the bias, so block t of the result is block t of the same
  function of the whole arrays; the 25 blocks cover the result array.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch5

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value: the bias row added to every row of the block, then the positive part. -/
theorem stored_eq (x0 : FVec Ideal S2000x256 .f32) (x1 : FVec Ideal S1x256 .f32) :
    k5_pay1 (F := Ideal) x0 x1 = positivePart (addRow (n := 2000) (N := 256) x0 x1) := by
  unfold k5_pay1
  simp only [shapeCast_self]
  rw [unitAddRow_eq (n := 2000) (N := 256) x0 x1 broadcasts_S1x256_S2000x256]
  rfl

/-- The index maps over the 25 points: the messages and the result move down one block of rows per point, the bias row
    stays. -/
theorem maps : ∀ t : Fin cfg5.N,
    win5_2.index t (0 : Fin 2) = t.val ∧ win5_2.index t (1 : Fin 2) = 0
    ∧ win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- Every block of rows is some point's. -/
theorem maps_onto : ∀ q : Fin 25, ∃ t : Fin cfg5.N, win5_2.index t = ![q.val, 0] :=
  (by decide +kernel : ∀ q : Fin 25, ∃ t : Fin grid5.N, win5_2.index t = ![q.val, 0])

/-- The messages' block at point t, read at (r, j), is the array at (2000 t + r, j). -/
theorem block_read (c : Dev nD) (t : Fin cfg5.N) (y : S2000x256.Idx) (i : S50000x256.Idx)
    (h0 : (i 0).val = t.val * 2000 + (y 0).val) (h1 : (i 1).val = (y 1).val) :
    iblk5 V c 0 t y = V c main_v77 i := by
  obtain ⟨e0, e1, e2, e3, e4, e5⟩ := maps t
  show V c main_v77 (((cfg5.win 0).blk t).view.emb y) = V c main_v77 i
  refine congrArg (V c main_v77) (funext fun a => Fin.ext ?_)
  match a with
  | ⟨0, _⟩ => show win5_0.index t (0 : Fin 2) * 2000 + 1 * (y 0).val = (i 0).val; omega
  | ⟨1, _⟩ => show win5_0.index t (1 : Fin 2) * 256 + 1 * (y 1).val = (i 1).val; omega

/-- The bias row's block at any point is the whole one-row array. -/
theorem row_read (c : Dev nD) (t : Fin cfg5.N) (y : S1x256.Idx) (i : S1x256.Idx)
    (h0 : (i 0).val = (y 0).val) (h1 : (i 1).val = (y 1).val) :
    iblk5 V c 1 t y = V c main_v78 i := by
  obtain ⟨e0, e1, e2, e3, e4, e5⟩ := maps t
  show V c main_v78 (((cfg5.win 1).blk t).view.emb y) = V c main_v78 i
  refine congrArg (V c main_v78) (funext fun a => Fin.ext ?_)
  match a with
  | ⟨0, _⟩ => show win5_1.index t (0 : Fin 2) * 1 + 1 * (y 0).val = (i 0).val; omega
  | ⟨1, _⟩ => show win5_1.index t (1 : Fin 2) * 256 + 1 * (y 1).val = (i 1).val; omega

/-- What point t writes back is block t of the same function of the arrays as the launch finds them. -/
theorem written_eq (c : Dev nD) (t : Fin cfg5.N) :
    (dat5 V c).flushed 2 t
      = ((cfg5.win 2).blk t).view.read (Elt Ideal) (positivePart (addRow (n := 50000) (N := 256) (V c main_v77) (V c main_v78))) := by
  show (cfg5.win 2).cut (grid5.coords t) ((dat5 V c).after 2 t) = _
  rw [after5_2]
  unfold out5_2
  rw [View.canon_unit_zero origin]
  simp only [View.ld_unit_zero (S := S2000x256) origin, View.ld_unit_zero (S := S1x256) origin]
  rw [stored_eq]
  obtain ⟨e0, e1, e2, e3, e4, e5⟩ := maps t
  funext j
  show positivePart (addRow (n := 2000) (N := 256) (iblk5 V c 0 t) (iblk5 V c 1 t)) j
    = positivePart (addRow (n := 50000) (N := 256) (V c main_v77) (V c main_v78)) (((cfg5.win 2).blk t).view.emb j)
  exact positivePart_congr _ _ j (((cfg5.win 2).blk t).view.emb j)
    (addRow_congr _ _ _ _ j (((cfg5.win 2).blk t).view.emb j)
      (block_read V c t j (((cfg5.win 2).blk t).view.emb j)
        (by show win5_2.index t (0 : Fin 2) * 2000 + 1 * (j 0).val = t.val * 2000 + (j 0).val; omega)
        (by show win5_2.index t (1 : Fin 2) * 256 + 1 * (j 1).val = (j 1).val; omega))
      (row_read V c t (ix2 (0 : Fin 1) (j 1)) (ix2 (0 : Fin 1) ((((cfg5.win 2).blk t).view.emb j) 1)) rfl
        (by show win5_2.index t (1 : Fin 2) * 256 + 1 * (j 1).val = (j 1).val; omega)))

/-- An index of the result is in point t's block iff each coordinate is in the block's range on its axis. -/
theorem mem_block (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v79).slice (win5_2.rect t)).set ↔ _
  rw [View.set_slice_whole, Rect.mem_set_unit]
  exact Iff.rfl

/-- Row r of the result is in the block of point r / 2000. -/
theorem covered (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ := maps_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- THE RESULT ARRAY after the launch: the messages plus the bias row, positive part taken, of the arrays as the launch found them. -/
theorem result (c : Dev nD) :
    (dat5 V c).arrAt 2 cfg5.N = positivePart (addRow (n := 50000) (N := 256) (V c main_v77) (V c main_v78)) :=
  (dat5 V c).arrAt_eq_of_cover 2 _ (fun t _ => written_eq V c t) covered

end Cert.KernelIdeal.Launch5

end
-- ==== Proof.Launch6.lean ====
/-
  Launch 6 of the kernel: the row-tiled product  main_v80 = main_v79 · main_arg9  ([50000, 256] by [256, 128]).

  The grid has 25 points; point t stages rows 2000 t … 2000 t + 1999 of the left operand, the whole right operand, and
  writes back rows 2000 t … 2000 t + 1999 of the result.  The body's one store is the vector unit's product of the two
  staged blocks (rounded to bf16, accumulated into zeros), which on the extended reals is `Gcn.product` of the blocks.
  Row r of a block's product reads row r of the left block and the whole right operand, so block t of the result is
  block t of the product of the whole arrays; the 25 blocks cover the result array, which therefore ends as that product —
  whatever contents `V` the launch finds in its arrays.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch6

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value is the product of its two loaded blocks. -/
theorem stored_eq (x0 : FVec Ideal S2000x256 .f32) (x1 : FVec Ideal S256x128 .f32) :
    k6_pay1 (F := Ideal) x0 x1 = product (n := 2000) (K := 256) (N := 128) x0 x1 := by
  unfold k6_pay1
  simp only [shapeCast_self]
  exact unitProduct_eq dot_S2000x256_S256x128_S2000x128_1_0_0_1_n_n.wf x0 x1 bitsLt_bf16_f32

/-- The index maps over the 25 points: the left operand and the result move down one block of rows per point, the right
    operand stays. -/
theorem maps : ∀ t : Fin cfg6.N,
    win6_2.index t (0 : Fin 2) = t.val ∧ win6_2.index t (1 : Fin 2) = 0
    ∧ win6_0.index t (0 : Fin 2) = t.val ∧ win6_0.index t (1 : Fin 2) = 0
    ∧ win6_1.index t (0 : Fin 2) = 0 ∧ win6_1.index t (1 : Fin 2) = 0 :=
  (by decide +kernel : ∀ t : Fin grid6.N, _)

/-- Every block of rows is some point's. -/
theorem maps_onto : ∀ q : Fin 25, ∃ t : Fin cfg6.N, win6_2.index t = ![q.val, 0] :=
  (by decide +kernel : ∀ q : Fin 25, ∃ t : Fin grid6.N, win6_2.index t = ![q.val, 0])

/-- The left operand's block at point t, read at (r, k), is the array at (2000 t + r, k). -/
theorem left_read (c : Dev nD) (t : Fin cfg6.N) (y : S2000x256.Idx) (i : S50000x256.Idx)
    (h0 : (i 0).val = t.val * 2000 + (y 0).val) (h1 : (i 1).val = (y 1).val) :
    iblk6 V c 0 t y = V c main_v79 i := by
  obtain ⟨e0, e1, e2, e3, e4, e5⟩ := maps t
  show V c main_v79 (((cfg6.win 0).blk t).view.emb y) = V c main_v79 i
  refine congrArg (V c main_v79) (funext fun a => Fin.ext ?_)
  match a with
  | ⟨0, _⟩ => show win6_0.index t (0 : Fin 2) * 2000 + 1 * (y 0).val = (i 0).val; omega
  | ⟨1, _⟩ => show win6_0.index t (1 : Fin 2) * 256 + 1 * (y 1).val = (i 1).val; omega

/-- The right operand's block at any point is the whole array. -/
theorem right_read (c : Dev nD) (t : Fin cfg6.N) (y : S256x128.Idx) (i : S256x128.Idx)
    (h0 : (i 0).val = (y 0).val) (h1 : (i 1).val = (y 1).val) :
    iblk6 V c 1 t y = V c main_arg9 i := by
  obtain ⟨e0, e1, e2, e3, e4, e5⟩ := maps t
  show V c main_arg9 (((cfg6.win 1).blk t).view.emb y) = V c main_arg9 i
  refine congrArg (V c main_arg9) (funext fun a => Fin.ext ?_)
  match a with
  | ⟨0, _⟩ => show win6_1.index t (0 : Fin 2) * 256 + 1 * (y 0).val = (i 0).val; omega
  | ⟨1, _⟩ => show win6_1.index t (1 : Fin 2) * 128 + 1 * (y 1).val = (i 1).val; omega

/-- What point t writes back is block t of the product of the arrays as the launch finds them. -/
theorem written_eq (c : Dev nD) (t : Fin cfg6.N) :
    (dat6 V c).flushed 2 t
      = ((cfg6.win 2).blk t).view.read (Elt Ideal) (product (n := 50000) (K := 256) (N := 128) (V c main_v79) (V c main_arg9)) := by
  show (cfg6.win 2).cut (grid6.coords t) ((dat6 V c).after 2 t) = _
  rw [after6_2]
  unfold out6_2
  rw [View.canon_unit_zero origin]
  simp only [View.ld_unit_zero (S := S2000x256) origin, View.ld_unit_zero (S := S256x128) origin]
  rw [stored_eq]
  obtain ⟨e0, e1, e2, e3, e4, e5⟩ := maps t
  funext j
  show product (n := 2000) (K := 256) (N := 128) (iblk6 V c 0 t) (iblk6 V c 1 t) j
    = product (n := 50000) (K := 256) (N := 128) (V c main_v79) (V c main_arg9) (((cfg6.win 2).blk t).view.emb j)
  exact product_congr _ _ _ _ j (((cfg6.win 2).blk t).view.emb j)
    (fun k => left_read V c t (ix2 (j 0) k) (ix2 ((((cfg6.win 2).blk t).view.emb j) 0) k)
      (by show win6_2.index t (0 : Fin 2) * 2000 + 1 * (j 0).val = t.val * 2000 + (j 0).val; omega) rfl)
    (fun k => right_read V c t (ix2 k (j 1)) (ix2 k ((((cfg6.win 2).blk t).view.emb j) 1)) rfl
      (by show win6_2.index t (1 : Fin 2) * 128 + 1 * (j 1).val = (j 1).val; omega))

/-- An index of the result is in point t's block iff each coordinate is in the block's range on its axis. -/
theorem mem_block (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v80).slice (win6_2.rect t)).set ↔ _
  rw [View.set_slice_whole, Rect.mem_set_unit]
  exact Iff.rfl

/-- Row r of the result is in the block of point r / 2000. -/
theorem covered (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := maps_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- THE RESULT ARRAY after the launch: the product of the two operand arrays as the launch found them. -/
theorem result (c : Dev nD) :
    (dat6 V c).arrAt 2 cfg6.N = product (n := 50000) (K := 256) (N := 128) (V c main_v79) (V c main_arg9) :=
  (dat6 V c).arrAt_eq_of_cover 2 _ (fun t _ => written_eq V c t) covered

end Cert.KernelIdeal.Launch6

end
-- ==== Proof.Launch7.lean ====
/-
  Launch 7 of the kernel: the bias row,  main_v95 = main_v93 + main_v94 (spread down the rows)  ([50000, 128]).

  The grid has 25 points; point t stages rows 2000 t … 2000 t + 1999 of the summed messages, the one-row bias, and
  writes back the same rows of the result.  The body adds the bias row to every row of its block: on the extended reals `Gcn.addRow` of the blocks.  Entry (r, j) of a block's
  result reads entry (r, j) of the block and entry (0, j) of the bias, so block t of the result is block t of the same
  function of the whole arrays; the 25 blocks cover the result array.
-/
import proofs.«139777_j52158082842633_1_alg».proof.Proof.Gen.KernelIdeal.Frame
import proofs.«139777_j52158082842633_1_alg».proof.Proof.Layer

-- membership in a rectangle of these extents: the elaborator's structural look recurses once per coordinate
set_option maxRecDepth 16384

noncomputable section

namespace Cert.KernelIdeal.Launch7

open Idealize.ShloMosaic Idealize.ShloMosaic.TcCoe Idealize.ShloMosaic.ValueIdx
open Cert.KernelIdeal Cert.KernelIdeal.Gen Cert.Gcn
open Idealize.ShloMosaic.Pipeline (Dat)

-- the buffer contents when the launch is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value: the bias row added to every row of the block. -/
theorem stored_eq (x0 : FVec Ideal S2000x128 .f32) (x1 : FVec Ideal S1x128 .f32) :
    k7_pay1 (F := Ideal) x0 x1 = addRow (n := 2000) (N := 128) x0 x1 := by
  unfold k7_pay1
  simp only [shapeCast_self]
  rw [unitAddRow_eq (n := 2000) (N := 128) x0 x1 broadcasts_S1x128_S2000x128]

/-- The index maps over the 25 points: the messages and the result move down one block of rows per point, the bias row
    stays. -/
theorem maps : ∀ t : Fin cfg7.N,
    win7_2.index t (0 : Fin 2) = t.val ∧ win7_2.index t (1 : Fin 2) = 0
    ∧ win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- Every block of rows is some point's. -/
theorem maps_onto : ∀ q : Fin 25, ∃ t : Fin cfg7.N, win7_2.index t = ![q.val, 0] :=
  (by decide +kernel : ∀ q : Fin 25, ∃ t : Fin grid7.N, win7_2.index t = ![q.val, 0])

/-- The messages' block at point t, read at (r, j), is the array at (2000 t + r, j). -/
theorem block_read (c : Dev nD) (t : Fin cfg7.N) (y : S2000x128.Idx) (i : S50000x128.Idx)
    (h0 : (i 0).val = t.val * 2000 + (y 0).val) (h1 : (i 1).val = (y 1).val) :
    iblk7 V c 0 t y = V c main_v93 i := by
  obtain ⟨e0, e1, e2, e3, e4, e5⟩ := maps t
  show V c main_v93 (((cfg7.win 0).blk t).view.emb y) = V c main_v93 i
  refine congrArg (V c main_v93) (funext fun a => Fin.ext ?_)
  match a with
  | ⟨0, _⟩ => show win7_0.index t (0 : Fin 2) * 2000 + 1 * (y 0).val = (i 0).val; omega
  | ⟨1, _⟩ => show win7_0.index t (1 : Fin 2) * 128 + 1 * (y 1).val = (i 1).val; omega

/-- The bias row's block at any point is the whole one-row array. -/
theorem row_read (c : Dev nD) (t : Fin cfg7.N) (y : S1x128.Idx) (i : S1x128.Idx)
    (h0 : (i 0).val = (y 0).val) (h1 : (i 1).val = (y 1).val) :
    iblk7 V c 1 t y = V c main_v94 i := by
  obtain ⟨e0, e1, e2, e3, e4, e5⟩ := maps t
  show V c main_v94 (((cfg7.win 1).blk t).view.emb y) = V c main_v94 i
  refine congrArg (V c main_v94) (funext fun a => Fin.ext ?_)
  match a with
  | ⟨0, _⟩ => show win7_1.index t (0 : Fin 2) * 1 + 1 * (y 0).val = (i 0).val; omega
  | ⟨1, _⟩ => show win7_1.index t (1 : Fin 2) * 128 + 1 * (y 1).val = (i 1).val; omega

/-- What point t writes back is block t of the same function of the arrays as the launch finds them. -/
theorem written_eq (c : Dev nD) (t : Fin cfg7.N) :
    (dat7 V c).flushed 2 t
      = ((cfg7.win 2).blk t).view.read (Elt Ideal) (addRow (n := 50000) (N := 128) (V c main_v93) (V c main_v94)) := by
  show (cfg7.win 2).cut (grid7.coords t) ((dat7 V c).after 2 t) = _
  rw [after7_2]
  unfold out7_2
  rw [View.canon_unit_zero origin]
  simp only [View.ld_unit_zero (S := S2000x128) origin, View.ld_unit_zero (S := S1x128) origin]
  rw [stored_eq]
  obtain ⟨e0, e1, e2, e3, e4, e5⟩ := maps t
  funext j
  show addRow (n := 2000) (N := 128) (iblk7 V c 0 t) (iblk7 V c 1 t) j
    = addRow (n := 50000) (N := 128) (V c main_v93) (V c main_v94) (((cfg7.win 2).blk t).view.emb j)
  exact addRow_congr _ _ _ _ j (((cfg7.win 2).blk t).view.emb j)
      (block_read V c t j (((cfg7.win 2).blk t).view.emb j)
        (by show win7_2.index t (0 : Fin 2) * 2000 + 1 * (j 0).val = t.val * 2000 + (j 0).val; omega)
        (by show win7_2.index t (1 : Fin 2) * 128 + 1 * (j 1).val = (j 1).val; omega))
      (row_read V c t (ix2 (0 : Fin 1) (j 1)) (ix2 (0 : Fin 1) ((((cfg7.win 2).blk t).view.emb j) 1)) rfl
        (by show win7_2.index t (1 : Fin 2) * 128 + 1 * (j 1).val = (j 1).val; omega))

/-- An index of the result is in point t's block iff each coordinate is in the block's range on its axis. -/
theorem mem_block (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v95).slice (win7_2.rect t)).set ↔ _
  rw [View.set_slice_whole, Rect.mem_set_unit]
  exact Iff.rfl

/-- Row r of the result is in the block of point r / 2000. -/
theorem covered (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := maps_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- THE RESULT ARRAY after the launch: the messages plus the bias row, of the arrays as the launch found them. -/
theorem result (c : Dev nD) :
    (dat7 V c).arrAt 2 cfg7.N = addRow (n := 50000) (N := 128) (V c main_v93) (V c main_v94) :=
  (dat7 V c).arrAt_eq_of_cover 2 _ (fun t _ => written_eq V c t) covered

end Cert.KernelIdeal.Launch7

end
-- ==== Proof.Carried.lean ====
/-
  What the kernel's later segments find in the buffers written earlier.

  A launch changes only its own arrays, and of those only its result; a stretch of host operations changes only the
  buffers its operations write.  So the source and target index lists of the edges (self loops appended) and the
  normalized edge weights, written by the first stretches, are still there when each of the four propagation stretches
  reads them (boundaries 4, 7, 10 and 13 of the fifteen segments), and every weight matrix and bias vector, which nothing
  writes, is as launched at the boundary where its layer reads it.  Each fact walks the fold of buffer contents back one
  segment at a time.
-/
import proofs.«139777_j52158082842633_1_alg».proof.Proof.Gen.KernelIdeal.Frame

set_option maxRecDepth 16384

noncomputable section

namespace Cert.KernelIdeal.Carried

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-- A stretch of host operations leaves a buffer that none of them writes as it found it: the goal's left side steps
    back over the stretch. -/
local macro "past_host" : tactic => `(tactic| refine (StableHlo.after_of_forall_not_mem _ _ (List.forall_iff_forall_mem.mp (by
  simp only [hostOps0, hostOps0_1, hostOps0_2, hostOps1, hostOps3, hostOps5, hostOps7, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))).trans ?_)

/-! ## The edges' source rows, target rows and normalized weights, at the four propagation stretches -/

theorem sources_at4 (c : Dev nD) : W4 m ρ c (Proc.devRef .tc main_v3) = W3 m ρ c (Proc.devRef .tc main_v3) := by
  refine (W4_of_ne m ρ c _ (by decide)).trans ?_
  exact rfl
theorem sources_at7 (c : Dev nD) : W7 m ρ c (Proc.devRef .tc main_v3) = W3 m ρ c (Proc.devRef .tc main_v3) := by
  refine (W7_of_ne m ρ c _ (by decide)).trans ?_
  refine (W6_of_ne m ρ c _ (by decide)).trans ?_
  past_host
  exact sources_at4 m ρ c
theorem sources_at10 (c : Dev nD) : W10 m ρ c (Proc.devRef .tc main_v3) = W3 m ρ c (Proc.devRef .tc main_v3) := by
  refine (W10_of_ne m ρ c _ (by decide)).trans ?_
  refine (W9_of_ne m ρ c _ (by decide)).trans ?_
  past_host
  exact sources_at7 m ρ c
theorem sources_at13 (c : Dev nD) : W13 m ρ c (Proc.devRef .tc main_v3) = W3 m ρ c (Proc.devRef .tc main_v3) := by
  refine (W13_of_ne m ρ c _ (by decide)).trans ?_
  refine (W12_of_ne m ρ c _ (by decide)).trans ?_
  past_host
  exact sources_at10 m ρ c

theorem targets_at4 (c : Dev nD) : W4 m ρ c (Proc.devRef .tc main_v6) = W3 m ρ c (Proc.devRef .tc main_v6) := by
  refine (W4_of_ne m ρ c _ (by decide)).trans ?_
  exact rfl
theorem targets_at7 (c : Dev nD) : W7 m ρ c (Proc.devRef .tc main_v6) = W3 m ρ c (Proc.devRef .tc main_v6) := by
  refine (W7_of_ne m ρ c _ (by decide)).trans ?_
  refine (W6_of_ne m ρ c _ (by decide)).trans ?_
  past_host
  exact targets_at4 m ρ c
theorem targets_at10 (c : Dev nD) : W10 m ρ c (Proc.devRef .tc main_v6) = W3 m ρ c (Proc.devRef .tc main_v6) := by
  refine (W10_of_ne m ρ c _ (by decide)).trans ?_
  refine (W9_of_ne m ρ c _ (by decide)).trans ?_
  past_host
  exact targets_at7 m ρ c
theorem targets_at13 (c : Dev nD) : W13 m ρ c (Proc.devRef .tc main_v6) = W3 m ρ c (Proc.devRef .tc main_v6) := by
  refine (W13_of_ne m ρ c _ (by decide)).trans ?_
  refine (W12_of_ne m ρ c _ (by decide)).trans ?_
  past_host
  exact targets_at10 m ρ c

theorem weights_at4 (c : Dev nD) : W4 m ρ c (Proc.devRef .tc main_v31) = W3 m ρ c (Proc.devRef .tc main_v31) := by
  refine (W4_of_ne m ρ c _ (by decide)).trans ?_
  exact rfl
theorem weights_at7 (c : Dev nD) : W7 m ρ c (Proc.devRef .tc main_v31) = W3 m ρ c (Proc.devRef .tc main_v31) := by
  refine (W7_of_ne m ρ c _ (by decide)).trans ?_
  refine (W6_of_ne m ρ c _ (by decide)).trans ?_
  past_host
  exact weights_at4 m ρ c
theorem weights_at10 (c : Dev nD) : W10 m ρ c (Proc.devRef .tc main_v31) = W3 m ρ c (Proc.devRef .tc main_v31) := by
  refine (W10_of_ne m ρ c _ (by decide)).trans ?_
  refine (W9_of_ne m ρ c _ (by decide)).trans ?_
  past_host
  exact weights_at7 m ρ c
theorem weights_at13 (c : Dev nD) : W13 m ρ c (Proc.devRef .tc main_v31) = W3 m ρ c (Proc.devRef .tc main_v31) := by
  refine (W13_of_ne m ρ c _ (by decide)).trans ?_
  refine (W12_of_ne m ρ c _ (by decide)).trans ?_
  past_host
  exact weights_at10 m ρ c

/-! ## The arguments, each at the boundary where it is read -/

theorem arg0_at3 (c : Dev nD) : W3 m ρ c (Proc.devRef .tc main_arg0) = m ((c : Thread nD τ).loc main_arg0) := by
  past_host
  past_host
  past_host
  rfl
theorem arg3_at3 (c : Dev nD) : W3 m ρ c (Proc.devRef .tc main_arg3) = m ((c : Thread nD τ).loc main_arg3) := by
  past_host
  past_host
  past_host
  rfl
theorem arg1_at0 (c : Dev nD) : W0 m ρ c (Proc.devRef .tc main_arg1) = m ((c : Thread nD τ).loc main_arg1) := by

  rfl
theorem arg2_at0 (c : Dev nD) : W0 m ρ c (Proc.devRef .tc main_arg2) = m ((c : Thread nD τ).loc main_arg2) := by

  rfl
theorem arg4_at4 (c : Dev nD) : W4 m ρ c (Proc.devRef .tc main_arg4) = m ((c : Thread nD τ).loc main_arg4) := by
  refine (W4_of_ne m ρ c _ (by decide)).trans ?_
  past_host
  past_host
  past_host
  rfl
theorem arg5_at6 (c : Dev nD) : W6 m ρ c (Proc.devRef .tc main_arg5) = m ((c : Thread nD τ).loc main_arg5) := by
  refine (W6_of_ne m ρ c _ (by decide)).trans ?_
  past_host
  refine (W4_of_ne m ρ c _ (by decide)).trans ?_
  past_host
  past_host
  past_host
  rfl
theorem arg6_at7 (c : Dev nD) : W7 m ρ c (Proc.devRef .tc main_arg6) = m ((c : Thread nD τ).loc main_arg6) := by
  refine (W7_of_ne m ρ c _ (by decide)).trans ?_
  refine (W6_of_ne m ρ c _ (by decide)).trans ?_
  past_host
  refine (W4_of_ne m ρ c _ (by decide)).trans ?_
  past_host
  past_host
  past_host
  rfl
theorem arg7_at9 (c : Dev nD) : W9 m ρ c (Proc.devRef .tc main_arg7) = m ((c : Thread nD τ).loc main_arg7) := by
  refine (W9_of_ne m ρ c _ (by decide)).trans ?_
  past_host
  refine (W7_of_ne m ρ c _ (by decide)).trans ?_
  refine (W6_of_ne m ρ c _ (by decide)).trans ?_
  past_host
  refine (W4_of_ne m ρ c _ (by decide)).trans ?_
  past_host
  past_host
  past_host
  rfl
theorem arg8_at10 (c : Dev nD) : W10 m ρ c (Proc.devRef .tc main_arg8) = m ((c : Thread nD τ).loc main_arg8) := by
  refine (W10_of_ne m ρ c _ (by decide)).trans ?_
  refine (W9_of_ne m ρ c _ (by decide)).trans ?_
  past_host
  refine (W7_of_ne m ρ c _ (by decide)).trans ?_
  refine (W6_of_ne m ρ c _ (by decide)).trans ?_
  past_host
  refine (W4_of_ne m ρ c _ (by decide)).trans ?_
  past_host
  past_host
  past_host
  rfl
theorem arg9_at12 (c : Dev nD) : W12 m ρ c (Proc.devRef .tc main_arg9) = m ((c : Thread nD τ).loc main_arg9) := by
  refine (W12_of_ne m ρ c _ (by decide)).trans ?_
  past_host
  refine (W10_of_ne m ρ c _ (by decide)).trans ?_
  refine (W9_of_ne m ρ c _ (by decide)).trans ?_
  past_host
  refine (W7_of_ne m ρ c _ (by decide)).trans ?_
  refine (W6_of_ne m ρ c _ (by decide)).trans ?_
  past_host
  refine (W4_of_ne m ρ c _ (by decide)).trans ?_
  past_host
  past_host
  past_host
  rfl
theorem arg10_at13 (c : Dev nD) : W13 m ρ c (Proc.devRef .tc main_arg10) = m ((c : Thread nD τ).loc main_arg10) := by
  refine (W13_of_ne m ρ c _ (by decide)).trans ?_
  refine (W12_of_ne m ρ c _ (by decide)).trans ?_
  past_host
  refine (W10_of_ne m ρ c _ (by decide)).trans ?_
  refine (W9_of_ne m ρ c _ (by decide)).trans ?_
  past_host
  refine (W7_of_ne m ρ c _ (by decide)).trans ?_
  refine (W6_of_ne m ρ c _ (by decide)).trans ?_
  past_host
  refine (W4_of_ne m ρ c _ (by decide)).trans ?_
  past_host
  past_host
  past_host
  rfl

end Cert.KernelIdeal.Carried

end
-- ==== Proof.Stretches.lean ====
/-
  The kernel's stretches of host operations, read against the reference's operations.

  Between its launches the kernel runs the same host operations as the reference, line for line: first the edge lists
  with one self loop per node appended (sources, targets), the weights with a 1 per self loop appended, the degree of
  every node (the weights summed into their targets), d^(-1/2) where the degree is positive and 0 elsewhere, and the
  normalized weight  d^(-1/2)[source] · w · d^(-1/2)[target]  of every edge; then, once per layer, the propagation — the
  rows of the layer's product gathered along the sources (an index below 0 wrapped by the node count first), scaled by
  the normalized weights, summed into the targets' rows — and the bias vector recast as a one-row matrix.

  None of this is opened.  Each stretch is read as a function of the buffers it finds (the entry contents `Wv` are a
  variable), and that function is, operation for operation, the reference's stage of the same name applied to the same
  arguments: the two printed programs spell the operations with records that differ only in the namespace they were
  printed in.  So the gathers and the sums along the edges never have to be read at an index, and an edge index outside
  the node range does whatever it does on both sides alike.
-/
import proofs.«139777_j52158082842633_1_alg».proof.Proof.Gen.KernelIdeal.Launch
import proofs.«139777_j52158082842633_1_alg».proof.Proof.Gen.ReferenceIdeal.Read

set_option maxRecDepth 16384

noncomputable section

namespace Cert.KernelIdeal.Stretches

open Idealize.ShloMosaic Idealize.ShloMosaic.TcCoe Idealize.ShloMosaic.StableHlo
open Cert.KernelIdeal Cert.KernelIdeal.Gen

-- the buffer contents the stretch finds
variable (Wv : Valuation τ sig (Elt Ideal))

/-! ## The first three stretches: the edges' rows and the normalized weights

The second stretch is the outlined `where` (degree positive ? d^(-1/2) : 0): its three operations act through typed
references, whose functions are wrapped in transports along "this buffer has this type" — identities, but not
syntactically.  So the three stretches are read one at a time, each from what it finds: every comparison is then
between a few operations over the buffers' contents. -/

/-- The sources with the self loops appended, after all three stretches. -/
theorem sources_eq (A1 A2 : _) (h1 : Wv (Proc.devRef .tc main_arg1) = A1) (h2 : Wv (Proc.devRef .tc main_arg2) = A2) :
    after hostOps0_2 (after hostOps0_1 (after hostOps0 Wv)) (Proc.devRef .tc main_v3) = Cert.ReferenceIdeal.Read.val_main_v3 A1 := by
  subst h1 h2
  simp only [hostOps0, hostOps0_1, hostOps0_2]
  after_results_simp <;> rfl

/-- The targets with the self loops appended, after all three stretches. -/
theorem targets_eq (A1 A2 : _) (h1 : Wv (Proc.devRef .tc main_arg1) = A1) (h2 : Wv (Proc.devRef .tc main_arg2) = A2) :
    after hostOps0_2 (after hostOps0_1 (after hostOps0 Wv)) (Proc.devRef .tc main_v6) = Cert.ReferenceIdeal.Read.val_main_v6 A1 := by
  subst h1 h2
  simp only [hostOps0, hostOps0_1, hostOps0_2]
  after_results_simp <;> rfl

/-- The sources, after the first two stretches. -/
theorem sources2_eq (A1 A2 : _) (h1 : Wv (Proc.devRef .tc main_arg1) = A1) (h2 : Wv (Proc.devRef .tc main_arg2) = A2) :
    after hostOps0_1 (after hostOps0 Wv) (Proc.devRef .tc main_v3) = Cert.ReferenceIdeal.Read.val_main_v3 A1 := by
  subst h1 h2
  simp only [hostOps0, hostOps0_1, hostOps0_2]
  after_results_simp <;> rfl

/-- The targets, after the first two stretches. -/
theorem targets2_eq (A1 A2 : _) (h1 : Wv (Proc.devRef .tc main_arg1) = A1) (h2 : Wv (Proc.devRef .tc main_arg2) = A2) :
    after hostOps0_1 (after hostOps0 Wv) (Proc.devRef .tc main_v6) = Cert.ReferenceIdeal.Read.val_main_v6 A1 := by
  subst h1 h2
  simp only [hostOps0, hostOps0_1, hostOps0_2]
  after_results_simp <;> rfl

/-- The weights with a 1 per self loop appended, after the first two stretches. -/
theorem loopWeights2_eq (A1 A2 : _) (h1 : Wv (Proc.devRef .tc main_arg1) = A1) (h2 : Wv (Proc.devRef .tc main_arg2) = A2) :
    after hostOps0_1 (after hostOps0 Wv) (Proc.devRef .tc main_v8) = Cert.ReferenceIdeal.Read.val_main_v8 A2 := by
  subst h1 h2
  simp only [hostOps0, hostOps0_1, hostOps0_2]
  after_results_simp <;> rfl

/-- Where the degree is positive, after the first stretch. -/
theorem positive1_eq (A1 A2 : _) (h1 : Wv (Proc.devRef .tc main_arg1) = A1) (h2 : Wv (Proc.devRef .tc main_arg2) = A2) :
    after hostOps0 Wv (Proc.devRef .tc main_v13) = Cert.ReferenceIdeal.Read.val_main_v13 A1 A2 := by
  subst h1 h2
  simp only [hostOps0, hostOps0_1, hostOps0_2]
  after_results_simp <;> rfl

/-- The degree to the power -1/2, after the first stretch. -/
theorem invSqrt1_eq (A1 A2 : _) (h1 : Wv (Proc.devRef .tc main_arg1) = A1) (h2 : Wv (Proc.devRef .tc main_arg2) = A2) :
    after hostOps0 Wv (Proc.devRef .tc main_v14) = Cert.ReferenceIdeal.Read.val_main_v14 A1 A2 := by
  subst h1 h2
  simp only [hostOps0, hostOps0_1, hostOps0_2]
  after_results_simp <;> rfl

/-- The zero the outlined call is handed, after the first stretch. -/
theorem zero1_eq (A1 A2 : _) (h1 : Wv (Proc.devRef .tc main_arg1) = A1) (h2 : Wv (Proc.devRef .tc main_arg2) = A2) :
    after hostOps0 Wv (Proc.devRef .tc main_cst_2) = Cert.ReferenceIdeal.Read.val_main_cst_2 := by
  subst h1 h2
  simp only [hostOps0, hostOps0_1, hostOps0_2]
  after_results_simp <;> rfl

/-- The second stretch as one operation of what it finds: the three operations of the outlined call act through typed
    references, whose transports are identities.  Read while the operands are still the unopened contents `Wv`, so that
    the only thing to reduce is the transports. -/
theorem where_eq :
    after hostOps0_1 Wv (Proc.devRef .tc main_v15)
      = select (Wv (Proc.devRef .tc main_v13)) (Wv (Proc.devRef .tc main_v14))
          (broadcastInDim S50000 ![] bcast_S_S50000 (id (Wv (Proc.devRef .tc main_cst_2)))) := by
  simp only [hostOps0_1]
  after_results
  rfl

/-- The second stretch: d^(-1/2) where the degree is positive, 0 elsewhere — from what it finds. -/
theorem invSqrtDegree_eq (A1 A2 : _)
    (hpos : Wv (Proc.devRef .tc main_v13) = Cert.ReferenceIdeal.Read.val_main_v13 A1 A2)
    (hinv : Wv (Proc.devRef .tc main_v14) = Cert.ReferenceIdeal.Read.val_main_v14 A1 A2)
    (hz : Wv (Proc.devRef .tc main_cst_2) = Cert.ReferenceIdeal.Read.val_main_cst_2) :
    after hostOps0_1 Wv (Proc.devRef .tc main_v15) = Cert.ReferenceIdeal.Read.val_main_v15 A1 A2 := by
  rw [where_eq, hpos, hinv, hz]
  rfl

set_option maxHeartbeats 16000000 in
/-- The third stretch: the normalized weight of every edge,  d^(-1/2)[source] · w · d^(-1/2)[target]  — from what it finds. -/
theorem weights_eq (A1 A2 : _)
    (hs : Wv (Proc.devRef .tc main_v3) = Cert.ReferenceIdeal.Read.val_main_v3 A1)
    (ht : Wv (Proc.devRef .tc main_v6) = Cert.ReferenceIdeal.Read.val_main_v6 A1)
    (hw : Wv (Proc.devRef .tc main_v8) = Cert.ReferenceIdeal.Read.val_main_v8 A2)
    (hd : Wv (Proc.devRef .tc main_v15) = Cert.ReferenceIdeal.Read.val_main_v15 A1 A2) :
    after hostOps0_2 Wv (Proc.devRef .tc main_v31) = Cert.ReferenceIdeal.Read.val_main_v31 A1 A2 := by
  simp only [hostOps0_2]
  after_results_simp
  rw [hs, ht, hw, hd]
  rfl

/-! ## One stretch per layer: the propagation and the bias row -/

set_option maxHeartbeats 16000000 in
/-- Layer 1's propagation: if the stretch finds the layer's product, the edges' rows and the normalized weights in their
    buffers, it leaves the summed messages in theirs. -/
theorem messages1_eq (A0 A1 A2 A3 : _)
    (hp : Wv (Proc.devRef .tc main_v32) = Cert.ReferenceIdeal.Read.val_main_v32 A0 A3)
    (hs : Wv (Proc.devRef .tc main_v3) = Cert.ReferenceIdeal.Read.val_main_v3 A1)
    (ht : Wv (Proc.devRef .tc main_v6) = Cert.ReferenceIdeal.Read.val_main_v6 A1)
    (hw : Wv (Proc.devRef .tc main_v31) = Cert.ReferenceIdeal.Read.val_main_v31 A1 A2) :
    after hostOps1 Wv (Proc.devRef .tc main_v45) = Cert.ReferenceIdeal.Read.val_main_v45 A0 A1 A2 A3 := by
  simp only [hostOps1]
  after_results_simp
  rw [hp, hs, ht, hw]
  rfl

/-- Layer 1's bias vector recast as a one-row matrix. -/
theorem biasRow1_eq (B : _) (hb : Wv (Proc.devRef .tc main_arg4) = B) :
    after hostOps1 Wv (Proc.devRef .tc main_v46) = shapeCast S1x256 B shapeCasts_S256_S1x256 := by
  subst hb
  simp only [hostOps1]
  after_results
  rfl

set_option maxHeartbeats 16000000 in
/-- Layer 2's propagation: if the stretch finds the layer's product, the edges' rows and the normalized weights in their
    buffers, it leaves the summed messages in theirs. -/
theorem messages2_eq (A0 A1 A2 A3 A4 A5 : _)
    (hp : Wv (Proc.devRef .tc main_v48) = Cert.ReferenceIdeal.Read.val_main_v50 A0 A1 A2 A3 A4 A5)
    (hs : Wv (Proc.devRef .tc main_v3) = Cert.ReferenceIdeal.Read.val_main_v3 A1)
    (ht : Wv (Proc.devRef .tc main_v6) = Cert.ReferenceIdeal.Read.val_main_v6 A1)
    (hw : Wv (Proc.devRef .tc main_v31) = Cert.ReferenceIdeal.Read.val_main_v31 A1 A2) :
    after hostOps3 Wv (Proc.devRef .tc main_v61) = Cert.ReferenceIdeal.Read.val_main_v63 A0 A1 A2 A3 A4 A5 := by
  simp only [hostOps3]
  after_results_simp
  rw [hp, hs, ht, hw]
  rfl

/-- Layer 2's bias vector recast as a one-row matrix. -/
theorem biasRow2_eq (B : _) (hb : Wv (Proc.devRef .tc main_arg6) = B) :
    after hostOps3 Wv (Proc.devRef .tc main_v62) = shapeCast S1x64 B shapeCasts_S64_S1x64 := by
  subst hb
  simp only [hostOps3]
  after_results
  rfl

set_option maxHeartbeats 16000000 in
/-- Layer 3's propagation: if the stretch finds the layer's product, the edges' rows and the normalized weights in their
    buffers, it leaves the summed messages in theirs. -/
theorem messages3_eq (A0 A1 A2 A3 A4 A5 A6 A7 : _)
    (hp : Wv (Proc.devRef .tc main_v64) = Cert.ReferenceIdeal.Read.val_main_v67 A0 A1 A2 A3 A4 A5 A6 A7)
    (hs : Wv (Proc.devRef .tc main_v3) = Cert.ReferenceIdeal.Read.val_main_v3 A1)
    (ht : Wv (Proc.devRef .tc main_v6) = Cert.ReferenceIdeal.Read.val_main_v6 A1)
    (hw : Wv (Proc.devRef .tc main_v31) = Cert.ReferenceIdeal.Read.val_main_v31 A1 A2) :
    after hostOps5 Wv (Proc.devRef .tc main_v77) = Cert.ReferenceIdeal.Read.val_main_v80 A0 A1 A2 A3 A4 A5 A6 A7 := by
  simp only [hostOps5]
  after_results_simp
  rw [hp, hs, ht, hw]
  rfl

/-- Layer 3's bias vector recast as a one-row matrix. -/
theorem biasRow3_eq (B : _) (hb : Wv (Proc.devRef .tc main_arg8) = B) :
    after hostOps5 Wv (Proc.devRef .tc main_v78) = shapeCast S1x256 B shapeCasts_S256_S1x256 := by
  subst hb
  simp only [hostOps5]
  after_results
  rfl

set_option maxHeartbeats 16000000 in
/-- Layer 4's propagation: if the stretch finds the layer's product, the edges' rows and the normalized weights in their
    buffers, it leaves the summed messages in theirs. -/
theorem messages4_eq (A0 A1 A2 A3 A4 A5 A6 A7 A8 A9 : _)
    (hp : Wv (Proc.devRef .tc main_v80) = Cert.ReferenceIdeal.Read.val_main_v85 A0 A1 A2 A3 A4 A5 A6 A7 A8 A9)
    (hs : Wv (Proc.devRef .tc main_v3) = Cert.ReferenceIdeal.Read.val_main_v3 A1)
    (ht : Wv (Proc.devRef .tc main_v6) = Cert.ReferenceIdeal.Read.val_main_v6 A1)
    (hw : Wv (Proc.devRef .tc main_v31) = Cert.ReferenceIdeal.Read.val_main_v31 A1 A2) :
    after hostOps7 Wv (Proc.devRef .tc main_v93) = Cert.ReferenceIdeal.Read.val_main_v98 A0 A1 A2 A3 A4 A5 A6 A7 A8 A9 := by
  simp only [hostOps7]
  after_results_simp
  rw [hp, hs, ht, hw]
  rfl

/-- Layer 4's bias vector recast as a one-row matrix. -/
theorem biasRow4_eq (B : _) (hb : Wv (Proc.devRef .tc main_arg10) = B) :
    after hostOps7 Wv (Proc.devRef .tc main_v94) = shapeCast S1x128 B shapeCasts_S128_S1x128 := by
  subst hb
  simp only [hostOps7]
  after_results
  rfl

end Cert.KernelIdeal.Stretches

end
-- ==== Proof.Network.lean ====
/-
  The kernel's result array is the reference's last stage of the arguments.

  The frame certificate folds the buffer contents through @main's fifteen segments.  Read for the buffers a later
  segment uses, the fold says, layer by layer (X₀ the node features, Wℓ and bℓ the layer's weights and bias, P the
  propagation along the edges with their normalized weights):

      Hℓ = Xℓ₋₁ · Wℓ            a product launch    (row-tiled; the reference's one dot_general)
      Mℓ = P Hℓ                 a host stretch      (the reference's own operations, unopened)
      Xℓ = act (Mℓ + bℓ)        a bias launch       (the reference's two broadcasts, add, and for ℓ = 1, 3 maximum with 0)

  and every step's value is the reference's stage of the same name at the same arguments.  A launch's result array is
  `Gcn.product` / `Gcn.addRow` / `Gcn.positivePart` of its operand arrays as it finds them (the launch modules); the
  host's dot_general, broadcasts and maximum are the same functions (Layer); what a stretch leaves is the reference's
  stage given what it finds (Stretches); and what each segment finds in a buffer written earlier is what was written
  (Carried).  The fourth layer's output is @main's result.
-/
import proofs.«139777_j52158082842633_1_alg».proof.Proof.Launch0
import proofs.«139777_j52158082842633_1_alg».proof.Proof.Launch1
import proofs.«139777_j52158082842633_1_alg».proof.Proof.Launch2
import proofs.«139777_j52158082842633_1_alg».proof.Proof.Launch3
import proofs.«139777_j52158082842633_1_alg».proof.Proof.Launch4
import proofs.«139777_j52158082842633_1_alg».proof.Proof.Launch5
import proofs.«139777_j52158082842633_1_alg».proof.Proof.Launch6
import proofs.«139777_j52158082842633_1_alg».proof.Proof.Launch7
import proofs.«139777_j52158082842633_1_alg».proof.Proof.Carried
import proofs.«139777_j52158082842633_1_alg».proof.Proof.Stretches

set_option maxRecDepth 16384

noncomputable section

namespace Cert.KernelIdeal.Network

open Idealize.ShloMosaic Idealize.ShloMosaic.TcCoe Idealize.ShloMosaic.ValueIdx
open Cert.KernelIdeal Cert.KernelIdeal.Gen Cert.Gcn

variable (m : (ℓ : Loc nD τ sig) → Buf (Elt Ideal) ℓ) (ρ : Dev nD → PrngReg) (c : Dev nD)

/-! ## The edges' rows and normalized weights, where the first launch is entered -/

theorem sources : W3 m ρ c (Proc.devRef .tc main_v3) = Cert.ReferenceIdeal.Read.val_main_v3 (m ((c : Thread nD τ).loc main_arg1)) :=
  Stretches.sources_eq (W0 m ρ c) _ _ rfl rfl

theorem targets : W3 m ρ c (Proc.devRef .tc main_v6) = Cert.ReferenceIdeal.Read.val_main_v6 (m ((c : Thread nD τ).loc main_arg1)) :=
  Stretches.targets_eq (W0 m ρ c) _ _ rfl rfl

/-- d^(-1/2) of the degree where it is positive, 0 elsewhere: the second stretch, from what the first leaves. -/
theorem invSqrtDegree : W2 m ρ c (Proc.devRef .tc main_v15) = Cert.ReferenceIdeal.Read.val_main_v15 (m ((c : Thread nD τ).loc main_arg1)) (m ((c : Thread nD τ).loc main_arg2)) :=
  Stretches.invSqrtDegree_eq (W1 m ρ c) _ _
    (Stretches.positive1_eq (W0 m ρ c) _ _ rfl rfl) (Stretches.invSqrt1_eq (W0 m ρ c) _ _ rfl rfl)
    (Stretches.zero1_eq (W0 m ρ c) _ _ rfl rfl)

/-- The normalized weight of every edge: the third stretch, from what the first two leave. -/
theorem weights : W3 m ρ c (Proc.devRef .tc main_v31) = Cert.ReferenceIdeal.Read.val_main_v31 (m ((c : Thread nD τ).loc main_arg1)) (m ((c : Thread nD τ).loc main_arg2)) :=
  Stretches.weights_eq (W2 m ρ c) _ _
    (Stretches.sources2_eq (W0 m ρ c) _ _ rfl rfl) (Stretches.targets2_eq (W0 m ρ c) _ _ rfl rfl)
    (Stretches.loopWeights2_eq (W0 m ρ c) _ _ rfl rfl) (invSqrtDegree m ρ c)

/-! ## Layer 1: 128 → 256, positive part -/

/-- Layer 1's product. -/
theorem product1 : W4 m ρ c (Proc.devRef .tc main_v32) = Cert.ReferenceIdeal.Read.val_main_v32 (m ((c : Thread nD τ).loc main_arg0)) (m ((c : Thread nD τ).loc main_arg3)) := by
  refine (W4_arr m ρ c 2).trans ((Launch0.result (V3 m ρ) c).trans ?_)
  show product (n := 50000) (K := 128) (N := 256) (W3 m ρ c (Proc.devRef .tc main_arg0)) (W3 m ρ c (Proc.devRef .tc main_arg3)) = _
  rw [Carried.arg0_at3 m ρ c, Carried.arg3_at3 m ρ c]
  exact (hostProduct_eq Cert.ReferenceIdeal.dot_S50000x128_S128x256_S50000x256_1_0_0_1_n_n.wf _ _).symm

/-- Layer 1's summed messages. -/
theorem messages1 : W5 m ρ c (Proc.devRef .tc main_v45) = Cert.ReferenceIdeal.Read.val_main_v45 (m ((c : Thread nD τ).loc main_arg0)) (m ((c : Thread nD τ).loc main_arg1)) (m ((c : Thread nD τ).loc main_arg2)) (m ((c : Thread nD τ).loc main_arg3)) :=
  Stretches.messages1_eq (W4 m ρ c) _ _ _ _ (product1 m ρ c)
    ((Carried.sources_at4 m ρ c).trans (sources m ρ c)) ((Carried.targets_at4 m ρ c).trans (targets m ρ c))
    ((Carried.weights_at4 m ρ c).trans (weights m ρ c))

/-- Layer 1's bias as a one-row matrix. -/
theorem biasRow1 : W5 m ρ c (Proc.devRef .tc main_v46) = shapeCast S1x256 (m ((c : Thread nD τ).loc main_arg4)) shapeCasts_S256_S1x256 :=
  Stretches.biasRow1_eq (W4 m ρ c) _ (Carried.arg4_at4 m ρ c)

/-- Layer 1's output: the messages plus the bias row, positive part taken. -/
theorem output1 : W6 m ρ c (Proc.devRef .tc main_v47) = Cert.ReferenceIdeal.Read.val_main_v49 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Launch1.result (V5 m ρ) c).trans ?_)
  show positivePart (addRow (n := 50000) (N := 256) (W5 m ρ c (Proc.devRef .tc main_v45)) (W5 m ρ c (Proc.devRef .tc main_v46))) = _
  rw [messages1 m ρ c, biasRow1 m ρ c]
  unfold Cert.ReferenceIdeal.Read.val_main_v49 Cert.ReferenceIdeal.Read.val_main_v48 Cert.ReferenceIdeal.Read.val_main_v47 Cert.ReferenceIdeal.Read.val_main_v46 Cert.ReferenceIdeal.Read.val_main_call1_v0 Cert.ReferenceIdeal.Read.val_main_call1_cst
  rw [hostPositivePart_eq, hostAddRow_eq, rowOfVector_eq _ _ shapeCasts_S256_S1x256]

/-! ## Layer 2: 256 → 64 -/

/-- Layer 2's product. -/
theorem product2 : W7 m ρ c (Proc.devRef .tc main_v48) = Cert.ReferenceIdeal.Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Launch2.result (V6 m ρ) c).trans ?_)
  show product (n := 50000) (K := 256) (N := 64) (W6 m ρ c (Proc.devRef .tc main_v47)) (W6 m ρ c (Proc.devRef .tc main_arg5)) = _
  rw [output1 m ρ c, Carried.arg5_at6 m ρ c]
  exact (hostProduct_eq Cert.ReferenceIdeal.dot_S50000x256_S256x64_S50000x64_1_0_0_1_n_n.wf _ _).symm

/-- Layer 2's summed messages. -/
theorem messages2 : W8 m ρ c (Proc.devRef .tc main_v61) = Cert.ReferenceIdeal.Read.val_main_v63 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.messages2_eq (W7 m ρ c) _ _ _ _ _ _ (product2 m ρ c)
    ((Carried.sources_at7 m ρ c).trans (sources m ρ c)) ((Carried.targets_at7 m ρ c).trans (targets m ρ c))
    ((Carried.weights_at7 m ρ c).trans (weights m ρ c))

/-- Layer 2's bias as a one-row matrix. -/
theorem biasRow2 : W8 m ρ c (Proc.devRef .tc main_v62) = shapeCast S1x64 (m ((c : Thread nD τ).loc main_arg6)) shapeCasts_S64_S1x64 :=
  Stretches.biasRow2_eq (W7 m ρ c) _ (Carried.arg6_at7 m ρ c)

/-- Layer 2's output: the messages plus the bias row. -/
theorem output2 : W9 m ρ c (Proc.devRef .tc main_v63) = Cert.ReferenceIdeal.Read.val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((Launch3.result (V8 m ρ) c).trans ?_)
  show addRow (n := 50000) (N := 64) (W8 m ρ c (Proc.devRef .tc main_v61)) (W8 m ρ c (Proc.devRef .tc main_v62)) = _
  rw [messages2 m ρ c, biasRow2 m ρ c]
  unfold Cert.ReferenceIdeal.Read.val_main_v66 Cert.ReferenceIdeal.Read.val_main_v65 Cert.ReferenceIdeal.Read.val_main_v64
  rw [hostAddRow_eq, rowOfVector_eq _ _ shapeCasts_S64_S1x64]

/-! ## Layer 3: 64 → 256, positive part -/

/-- Layer 3's product. -/
theorem product3 : W10 m ρ c (Proc.devRef .tc main_v64) = Cert.ReferenceIdeal.Read.val_main_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((Launch4.result (V9 m ρ) c).trans ?_)
  show product (n := 50000) (K := 64) (N := 256) (W9 m ρ c (Proc.devRef .tc main_v63)) (W9 m ρ c (Proc.devRef .tc main_arg7)) = _
  rw [output2 m ρ c, Carried.arg7_at9 m ρ c]
  exact (hostProduct_eq Cert.ReferenceIdeal.dot_S50000x64_S64x256_S50000x256_1_0_0_1_n_n.wf _ _).symm

/-- Layer 3's summed messages. -/
theorem messages3 : W11 m ρ c (Proc.devRef .tc main_v77) = Cert.ReferenceIdeal.Read.val_main_v80 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretches.messages3_eq (W10 m ρ c) _ _ _ _ _ _ _ _ (product3 m ρ c)
    ((Carried.sources_at10 m ρ c).trans (sources m ρ c)) ((Carried.targets_at10 m ρ c).trans (targets m ρ c))
    ((Carried.weights_at10 m ρ c).trans (weights m ρ c))

/-- Layer 3's bias as a one-row matrix. -/
theorem biasRow3 : W11 m ρ c (Proc.devRef .tc main_v78) = shapeCast S1x256 (m ((c : Thread nD τ).loc main_arg8)) shapeCasts_S256_S1x256 :=
  Stretches.biasRow3_eq (W10 m ρ c) _ (Carried.arg8_at10 m ρ c)

/-- Layer 3's output: the messages plus the bias row, positive part taken. -/
theorem output3 : W12 m ρ c (Proc.devRef .tc main_v79) = Cert.ReferenceIdeal.Read.val_main_v84 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ((Launch5.result (V11 m ρ) c).trans ?_)
  show positivePart (addRow (n := 50000) (N := 256) (W11 m ρ c (Proc.devRef .tc main_v77)) (W11 m ρ c (Proc.devRef .tc main_v78))) = _
  rw [messages3 m ρ c, biasRow3 m ρ c]
  unfold Cert.ReferenceIdeal.Read.val_main_v84 Cert.ReferenceIdeal.Read.val_main_v83 Cert.ReferenceIdeal.Read.val_main_v82 Cert.ReferenceIdeal.Read.val_main_v81 Cert.ReferenceIdeal.Read.val_main_call2_v0 Cert.ReferenceIdeal.Read.val_main_call2_cst
  rw [hostPositivePart_eq, hostAddRow_eq, rowOfVector_eq _ _ shapeCasts_S256_S1x256]

/-! ## Layer 4: 256 → 128; its output is @main's result -/

/-- Layer 4's product. -/
theorem product4 : W13 m ρ c (Proc.devRef .tc main_v80) = Cert.ReferenceIdeal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 2).trans ((Launch6.result (V12 m ρ) c).trans ?_)
  show product (n := 50000) (K := 256) (N := 128) (W12 m ρ c (Proc.devRef .tc main_v79)) (W12 m ρ c (Proc.devRef .tc main_arg9)) = _
  rw [output3 m ρ c, Carried.arg9_at12 m ρ c]
  exact (hostProduct_eq Cert.ReferenceIdeal.dot_S50000x256_S256x128_S50000x128_1_0_0_1_n_n.wf _ _).symm

/-- Layer 4's summed messages. -/
theorem messages4 : W14 m ρ c (Proc.devRef .tc main_v93) = Cert.ReferenceIdeal.Read.val_main_v98 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Stretches.messages4_eq (W13 m ρ c) _ _ _ _ _ _ _ _ _ _ (product4 m ρ c)
    ((Carried.sources_at13 m ρ c).trans (sources m ρ c)) ((Carried.targets_at13 m ρ c).trans (targets m ρ c))
    ((Carried.weights_at13 m ρ c).trans (weights m ρ c))

/-- Layer 4's bias as a one-row matrix. -/
theorem biasRow4 : W14 m ρ c (Proc.devRef .tc main_v94) = shapeCast S1x128 (m ((c : Thread nD τ).loc main_arg10)) shapeCasts_S128_S1x128 :=
  Stretches.biasRow4_eq (W13 m ρ c) _ (Carried.arg10_at13 m ρ c)

/-- Layer 4's output: the messages plus the bias row. -/
theorem output4 : W15 m ρ c (Proc.devRef .tc main_v95) = Cert.ReferenceIdeal.Read.val_main_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W15_arr m ρ c 2).trans ((Launch7.result (V14 m ρ) c).trans ?_)
  show addRow (n := 50000) (N := 128) (W14 m ρ c (Proc.devRef .tc main_v93)) (W14 m ρ c (Proc.devRef .tc main_v94)) = _
  rw [messages4 m ρ c, biasRow4 m ρ c]
  unfold Cert.ReferenceIdeal.Read.val_main_v101 Cert.ReferenceIdeal.Read.val_main_v100 Cert.ReferenceIdeal.Read.val_main_v99
  rw [hostAddRow_eq, rowOfVector_eq _ _ shapeCasts_S128_S1x128]

end Cert.KernelIdeal.Network

end
-- ==== Proof.lean ====
/-
  The certificate of a four-layer graph-convolution autoencoder: the Pallas kernel against its jnp reference, equal as
  extended reals.

  Both programs first normalize the graph — one self loop of weight 1 per node, the degree d of every node as the sum of
  the weights into it, the edge weight d^(-1/2)[source] · w · d^(-1/2)[target] (0 for a node of degree 0) — and then apply
  four times, with layer sizes 128 → 256 → 64 → 256 → 128,

      X ↦ act (P (X · W) + b),

  P the weighted sum of the neighbours' rows along the edges, act the positive part in layers 1 and 3 and the identity in
  layers 2 and 4.  The kernel computes X · W in a launch tiled over blocks of 2000 rows, with operands rounded to bf16,
  and "+ b, act" in a second row-tiled launch; the normalization and P are host operations it shares with the reference,
  line for line.  On the extended reals rounding is the identity, a tiled product is the product, and the bias launch is
  the reference's broadcast-and-add: the two results are one function of the arguments.  No step uses that the inputs
  are finite — no sum is regrouped across a product and nothing is cancelled — so the precondition is never opened.

  * The three frames: the two kernel programs' are the generated frame certificates; the reference's is its generated run
    with the result dropped.
  * `preserves`: the idealization rewrote nothing.
  * `algebraic`: the kernel's run with its result named (KernelRun), that result read through the fifteen segments
    as the reference's last stage of the arguments (Network), and the reference's generated run, whose result is that
    stage by definition.
-/
import proofs.«139777_j52158082842633_1_alg».proof.Defs
import proofs.«139777_j52158082842633_1_alg».proof.Proof.Gen.Kernel
import proofs.«139777_j52158082842633_1_alg».proof.Proof.Gen.Kernel.Skeleton
import proofs.«139777_j52158082842633_1_alg».proof.Proof.Gen.Kernel.Launch
import proofs.«139777_j52158082842633_1_alg».proof.Proof.Gen.Kernel.Points
import proofs.«139777_j52158082842633_1_alg».proof.Proof.Gen.Kernel.Frame
import proofs.«139777_j52158082842633_1_alg».proof.Proof.Gen.KernelIdeal
import proofs.«139777_j52158082842633_1_alg».proof.Proof.Gen.KernelIdeal.Skeleton
import proofs.«139777_j52158082842633_1_alg».proof.Proof.Gen.KernelIdeal.Launch
import proofs.«139777_j52158082842633_1_alg».proof.Proof.Gen.KernelIdeal.Points
import proofs.«139777_j52158082842633_1_alg».proof.Proof.Gen.KernelIdeal.Frame
import proofs.«139777_j52158082842633_1_alg».proof.Proof.Gen.ReferenceIdeal
import proofs.«139777_j52158082842633_1_alg».proof.Proof.Gen.ReferenceIdeal.Run
import proofs.«139777_j52158082842633_1_alg».proof.Proof.Gen.ReferenceIdeal.Read
import proofs.«139777_j52158082842633_1_alg».proof.Proof.Gen.Pre_finite_inputs
import proofs.«139777_j52158082842633_1_alg».proof.Proof.KernelRun
import proofs.«139777_j52158082842633_1_alg».proof.Proof.Network
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's last stage of those arguments in
    their result arrays. -/
theorem algebraic : Cert.algebraic_KernelIdeal_ReferenceIdeal := by
  intro m ρ m' ρ' _ hagree
  refine ⟨fun c => Cert.ReferenceIdeal.Read.val_main_v101 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Network.output4 m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v101_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
